-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : FVec F S2048x2048 .f32) (main_arg2 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x4096x2048 : Shape := ⟨3, ![4, 4096, 2048]⟩
abbrev S2048x2048 : Shape := ⟨2, ![2048, 2048]⟩
abbrev S2048 : Shape := ⟨1, ![2048]⟩
abbrev S256x2048 : Shape := ⟨2, ![256, 2048]⟩
abbrev S8x32x64x32 : Shape := ⟨4, ![8, 32, 64, 32]⟩
abbrev S8x32x64 : Shape := ⟨3, ![8, 32, 64]⟩
abbrev S8x32x64x1 : Shape := ⟨4, ![8, 32, 64, 1]⟩
abbrev S8x64x1 : Shape := ⟨3, ![8, 64, 1]⟩
abbrev S8x1x64x1 : Shape := ⟨4, ![8, 1, 64, 1]⟩
abbrev S16384x2048 : Shape := ⟨2, ![16384, 2048]⟩
abbrev S1x2048 : Shape := ⟨2, ![1, 2048]⟩
abbrev S512x2048 : Shape := ⟨2, ![512, 2048]⟩
abbrev S512x64x32 : Shape := ⟨3, ![512, 64, 32]⟩
abbrev S512x64 : Shape := ⟨2, ![512, 64]⟩
abbrev S512x64x1 : Shape := ⟨3, ![512, 64, 1]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S16384x2048, .f32⟩
  | .hbm, ⟨5, _⟩ => ⟨S1x2048, .f32⟩
  | .hbm, ⟨6, _⟩ => ⟨S16384x2048, .f32⟩
  | .hbm, ⟨7, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256x2048_S256x2048_0_0 : ∀ a, (![0, 0] : Fin 2 → Nat) a + S256x2048.size a ≤ S256x2048.size a
  h_S256x2048 : 0 < S256x2048.numel
  shapeCasts_S256x2048_S8x32x64x32 : S256x2048.ShapeCasts S8x32x64x32
  reduces_S8x32x64x32_S8x32x64 : S8x32x64x32.Reduces [3] S8x32x64
  shapeCasts_S8x32x64_S8x32x64x1 : S8x32x64.ShapeCasts S8x32x64x1
  reduces_S8x32x64x1_S8x64x1 : S8x32x64x1.Reduces [1] S8x64x1
  shapeCasts_S8x64x1_S8x1x64x1 : S8x64x1.ShapeCasts S8x1x64x1
  broadcasts_S8x1x64x1_S8x32x64x32 : S8x1x64x1.Broadcasts S8x32x64x32
  shapeCasts_S8x32x64x32_S256x2048 : S8x32x64x32.ShapeCasts S256x2048
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  shapeCasts_S4x4096x2048_S16384x2048 : S4x4096x2048.ShapeCasts S16384x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S512x2048_S512x64x32 : S512x2048.ShapeCasts S512x64x32
  reduces_S512x64x32_S512x64 : S512x64x32.Reduces [2] S512x64
  shapeCasts_S512x64_S512x64x1 : S512x64.ShapeCasts S512x64x1
  broadcasts_S512x64x1_S512x64x32 : S512x64x1.Broadcasts S512x64x32
  shapeCasts_S512x64x32_S512x2048 : S512x64x32.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S4x4096x2048 : S16384x2048.ShapeCasts S4x4096x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S16384x2048.size a
  hwx1_3 : ∀ i : grid1.Coords, EltTy.bits .f32 = 32 ∨ (Rect.block (s := S16384x2048) S512x2048.size (cc1_transform_3 i) (hinb1_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S4x4096x1x64x32 : Shape := ⟨5, ![4, 4096, 1, 64, 32]⟩
abbrev S_ : Shape := ⟨0, ![]⟩
abbrev S4x4096x64 : Shape := ⟨3, ![4, 4096, 64]⟩
abbrev S4x4096x1x64x1 : Shape := ⟨5, ![4, 4096, 1, 64, 1]⟩
abbrev S64x32x64x32 : Shape := ⟨4, ![64, 32, 64, 32]⟩
abbrev S64x64 : Shape := ⟨2, ![64, 64]⟩
abbrev S64x1x64x1 : Shape := ⟨4, ![64, 1, 64, 1]⟩
abbrev S1x1x2048 : Shape := ⟨3, ![1, 1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S4x4096x1x64x32, .f32⟩
  | .hbm, ⟨4, _⟩ => ⟨S4x4096x1x64x32, .f32⟩
  | .hbm, ⟨5, _⟩ => ⟨S_, .f32⟩
  | .hbm, ⟨6, _⟩ => ⟨S4x4096x64, .f32⟩
  | .hbm, ⟨7, _⟩ => ⟨S4x4096x1x64x1, .f32⟩
  | .hbm, ⟨8, _⟩ => ⟨S_, .f32⟩
  | .hbm, ⟨9, _⟩ => ⟨S4x4096x1x64x1, .f32⟩
  | .hbm, ⟨10, _⟩ => ⟨S4x4096x1x64x1, .i1⟩
  | .hbm, ⟨11, _⟩ => ⟨S_, .f32⟩
  | .hbm, ⟨12, _⟩ => ⟨S4x4096x1x64x1, .f32⟩
  | .hbm, ⟨13, _⟩ => ⟨S4x4096x1x64x1, .f32⟩
  | .hbm, ⟨14, _⟩ => ⟨S_, .f32⟩
  | .hbm, ⟨15, _⟩ => ⟨S4x4096x1x64x1, .f32⟩
  | .hbm, ⟨16, _⟩ => ⟨S4x4096x1x64x1, .f32⟩
  | .hbm, ⟨17, _⟩ => ⟨S4x4096x1x64x32, .f32⟩
  | .hbm, ⟨18, _⟩ => ⟨S4x4096x1x64x32, .f32⟩
  | .hbm, ⟨19, _⟩ => ⟨S4x4096x1x64x32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4096x1x64x32, .f32⟩
  | .hbm, ⟨24, _⟩ => ⟨S4x4096x1x64x32, .f32⟩
  | .hbm, ⟨25, _⟩ => ⟨S_, .f32⟩
  | .hbm, ⟨26, _⟩ => ⟨S4x4096x1x64x32, .f32⟩
  | .hbm, ⟨27, _⟩ => ⟨S4x4096x1x64x32, .f32⟩
  | .hbm, ⟨28, _⟩ => ⟨S4x4096x1x64x32, .f32⟩
  | .hbm, ⟨29, _⟩ => ⟨S4x4096x1x64x32, .f32⟩
  | .hbm, ⟨30, _⟩ => ⟨S4x4096x2048, .f32⟩
  | .hbm, ⟨31, _⟩ => ⟨S2048x2048, .f32⟩
  | .hbm, ⟨32, _⟩ => ⟨S64x32x64x32, .f32⟩
  | .hbm, ⟨33, _⟩ => ⟨S64x32x64x32, .f32⟩
  | .hbm, ⟨34, _⟩ => ⟨S_, .f32⟩
  | .hbm, ⟨35, _⟩ => ⟨S64x64, .f32⟩
  | .hbm, ⟨36, _⟩ => ⟨S64x1x64x1, .f32⟩
  | .hbm, ⟨37, _⟩ => ⟨S_, .f32⟩
  | .hbm, ⟨38, _⟩ => ⟨S64x1x64x1, .f32⟩
  | .hbm, ⟨39, _⟩ => ⟨S64x1x64x1, .i1⟩
  | .hbm, ⟨40, _⟩ => ⟨S_, .f32⟩
  | .hbm, ⟨41, _⟩ => ⟨S64x1x64x1, .f32⟩
  | .hbm, ⟨42, _⟩ => ⟨S64x1x64x1, .f32⟩
  | .hbm, ⟨43, _⟩ => ⟨S_, .f32⟩
  | .hbm, ⟨44, _⟩ => ⟨S64x1x64x1, .f32⟩
  | .hbm, ⟨45, _⟩ => ⟨S64x1x64x1, .f32⟩
  | .hbm, ⟨46, _⟩ => ⟨S64x32x64x32, .f32⟩
  | .hbm, ⟨47, _⟩ => ⟨S64x32x64x32, .f32⟩
  | .hbm, ⟨48, _⟩ => ⟨S64x32x64x32, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S64x32x64x32, .f32⟩
  | .hbm, ⟨53, _⟩ => ⟨S64x32x64x32, .f32⟩
  | .hbm, ⟨54, _⟩ => ⟨S_, .f32⟩
  | .hbm, ⟨55, _⟩ => ⟨S64x32x64x32, .f32⟩
  | .hbm, ⟨56, _⟩ => ⟨S64x32x64x32, .f32⟩
  | .hbm, ⟨57, _⟩ => ⟨S64x32x64x32, .f32⟩
  | .hbm, ⟨58, _⟩ => ⟨S64x32x64x32, .f32⟩
  | .hbm, ⟨59, _⟩ => ⟨S2048x2048, .f32⟩
  | .hbm, ⟨60, _⟩ => ⟨S4x4096x2048, .f32⟩
  | .hbm, ⟨61, _⟩ => ⟨S1x1x2048, .f32⟩
  | .hbm, ⟨62, _⟩ => ⟨S4x4096x2048, .f32⟩
  | .hbm, ⟨63, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_cst_4 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_cst_10 : Ref sig .tc := ⟨.hbm, 50, rfl⟩
abbrev main_call5_v0 : Ref sig .tc := ⟨.hbm, 51, rfl⟩
abbrev main_call5_v1 : Ref sig .tc := ⟨.hbm, 52, rfl⟩
abbrev main_call5_v2 : Ref sig .tc := ⟨.hbm, 53, rfl⟩
abbrev main_call5_v3 : Ref sig .tc := ⟨.hbm, 54, rfl⟩
abbrev main_call5_v4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]

class Facts₀ : Prop where
  shapeCasts_S4x4096x2048_S4x4096x1x64x32 : S4x4096x2048.ShapeCasts S4x4096x1x64x32
  reducesTo_S4x4096x1x64x32_S4x4096x64_d2_4 : S4x4096x1x64x32.ReducesTo [2, 4] S4x4096x64
  h_S_ : 0 < S_.numel
  bcast_S4x4096x64_S4x4096x1x64x1_0_1_3 : S4x4096x64.BroadcastsInDim S4x4096x1x64x1 (![0, 1, 3] : Fin 3 → Fin S4x4096x1x64x1.rank)
  bcast_S_S4x4096x1x64x1 : S_.BroadcastsInDim S4x4096x1x64x1 (![] : Fin 0 → Fin S4x4096x1x64x1.rank)
  bcast_S4x4096x1x64x1_S4x4096x1x64x32_0_1_2_3_4 : S4x4096x1x64x1.BroadcastsInDim S4x4096x1x64x32 (![0, 1, 2, 3, 4] : Fin 5 → Fin S4x4096x1x64x32.rank)
  bcast_S_S4x4096x1x64x32 : S_.BroadcastsInDim S4x4096x1x64x32 (![] : Fin 0 → Fin S4x4096x1x64x32.rank)
  shapeCasts_S4x4096x1x64x32_S4x4096x2048 : S4x4096x1x64x32.ShapeCasts S4x4096x2048
  transposes_S2048x2048_S2048x2048_1_0 : S2048x2048.Transposes [1, 0] S2048x2048
  shapeCasts_S2048x2048_S64x32x64x32 : S2048x2048.ShapeCasts S64x32x64x32
  reducesTo_S64x32x64x32_S64x64_d1_3 : S64x32x64x32.ReducesTo [1, 3] S64x64
  bcast_S64x64_S64x1x64x1_0_2 : S64x64.BroadcastsInDim S64x1x64x1 (![0, 2] : Fin 2 → Fin S64x1x64x1.rank)
  bcast_S_S64x1x64x1 : S_.BroadcastsInDim S64x1x64x1 (![] : Fin 0 → Fin S64x1x64x1.rank)
  bcast_S64x1x64x1_S64x32x64x32_0_1_2_3 : S64x1x64x1.BroadcastsInDim S64x32x64x32 (![0, 1, 2, 3] : Fin 4 → Fin S64x32x64x32.rank)
  bcast_S_S64x32x64x32 : S_.BroadcastsInDim S64x32x64x32 (![] : Fin 0 → Fin S64x32x64x32.rank)
  shapeCasts_S64x32x64x32_S2048x2048 : S64x32x64x32.ShapeCasts S2048x2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_0_01_1_n_n_wf : DotDims.WF S4x4096x2048 S2048x2048 S4x4096x2048 [2] [0] [0, 1] [1] [] []

variable [Facts₀]

def dot_S4x4096x2048_S2048x2048_S4x4096x2048_2_0_01_1_n_n : DotDims S4x4096x2048 S2048x2048 S4x4096x2048 where
  lhsContracting := [2]
  rhsContracting := [0]
  lhsNonContracting := [0, 1]
  rhsNonContracting := [1]
  lhsBatch := []
  rhsBatch := []
  wf := dot_S4x4096x2048_S2048x2048_S4x4096x2048_2_0_01_1_n_n_wf

class Facts : Prop extends Facts₀ where

variable [Facts]
-- ==== Proof.KernelRun.lean ====
/-
  The kernel program's run, with its result named.

  @main is two regions among host reshapes.  Region 0 writes the quantised weight; the host then merges the
  activation's two leading axes and views the bias as one row; region 1 computes its output from those three arrays; a
  last reshape splits the output's leading axis again.  The buffer contents at each boundary are a fold from the launch
  memory: a host stretch applies its operations, a region replaces its arrays by what its write-backs leave and keeps
  every other buffer.

  Read through that fold: at region 1's entry the activation and the bias are the launched ones reshaped, and the
  weight is what region 0 leaves; the result is the reshape of what region 1 leaves in its output.  The run itself
  ends with every unscoped buffer at the last boundary's contents, so the result buffer is read off it beside the three
  arguments.
-/
import proofs.«142055_j16587163697535_2_alg».proof.Proof.Gen.KernelIdeal.Frame
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at region 1's entry

Before region 1 the host reshapes the activation and the bias; region 0 has written the quantised weight. -/

/-- At launch the weight's buffer holds the weight. -/
theorem V0_weight (c : Dev nD) : V0 m ρ c main_arg1 = m ((c.tc : Thread nD τ).loc main_arg1) := rfl

/-- Region 1 finds, as its activation, the launched activation with its two leading axes merged: region 0 leaves the
    activation's buffer as launched. -/
theorem V2_act (c : Dev nD) : V2 m ρ c main_v1
    = shapeCast S16384x2048 (m ((c.tc : Thread nD τ).loc main_arg0)) Facts₀.shapeCasts_S4x4096x2048_S16384x2048 := by
  show StableHlo.after hostOps1 (W1 m ρ c) (Proc.devRef .tc main_v1) = _
  after_results
  rw [W1_of_ne m ρ c main_arg0 (by decide)]
  rfl

/-- Region 1 finds, as its bias, the launched bias as one row: region 0 leaves the bias's buffer as launched. -/
theorem V2_bias (c : Dev nD) : V2 m ρ c main_v2
    = shapeCast S1x2048 (m ((c.tc : Thread nD τ).loc main_arg2)) Facts₀.shapeCasts_S2048_S1x2048 := by
  show StableHlo.after hostOps1 (W1 m ρ c) (Proc.devRef .tc main_v2) = _
  after_results
  rw [W1_of_ne m ρ c main_arg2 (by decide)]
  rfl

/-- Region 1 finds, as its weight, what region 0's write-backs leave in the quantised weight's buffer: neither
    reshape writes that buffer. -/
theorem V2_weight (c : Dev nD) : V2 m ρ c main_v0 = (dat0 (V0 m ρ) c).arrAt 1 cfg0.N := by
  show StableHlo.after hostOps1 (W1 m ρ c) (Proc.devRef .tc main_v0) = _
  after_results
  exact W1_arr m ρ c 1

/-! ## The result

The last host operation splits the leading axis of what region 1's write-backs leave in its output buffer. -/

theorem W4_result (c : Dev nD) : W4 m ρ c (Proc.devRef .tc main_v4)
    = shapeCast S4x4096x2048 ((dat1 (V2 m ρ) c).arrAt 3 cfg1.N) Facts₀.shapeCasts_S16384x2048_S4x4096x2048 := by
  have e : W3 m ρ c (Proc.devRef .tc main_v3) = (dat1 (V2 m ρ) c).arrAt 3 cfg1.N := W3_arr m ρ c 3
  show StableHlo.after hostOps2 (W3 m ρ c) (Proc.devRef .tc main_v4) = _
  after_results
  rw [e]
  rfl

/-! ## The run -/

set_option backward.isDefEq.respectTransparency.types false in
/-- From any memory with zero counters every weakly fair execution of @main on the TensorCores terminates, nothing
    faulting, and every final state has the result buffer at the last boundary's contents and the three argument arrays
    as launched: the final state holds every unscoped buffer at the last boundary's contents, and the result buffer is
    one of them. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Run

end
-- ==== Proof.Spec.lean ====
/-
  The function both programs compute, over the extended reals.

  Every entry of the activation `x` is divided by a scale, rounded to the nearest integer (ties to even),
  clamped to [-127, 127] and multiplied back by the scale.  The scale of an entry is `m / 127` when the largest
  absolute value `m` of the entry's group is positive and `1` otherwise.  For the activation a group is 32
  consecutive entries of one row; for the weight it is a 32 × 32 tile.  The result at (b, s, e) is the sum over
  `d` of the quantised activation at (b, s, d) times the quantised weight at (e, d), plus the bias at `e`.

  A group's largest absolute value is written as a fold of `max` from `-∞`; a fold of `max` is determined by
  the set of values it ranges over (`fold_max_congr_of_exists`), which is all the two programs' different orders
  of taking that maximum need.
-/
import Idealize.ShloMosaic.PureOps.Ideal
import Idealize.ShloMosaic.PureOps.Ideal.Laws
import Idealize.ShloMosaic.Lib.ValueIdx

noncomputable section

namespace Cert.Quant

open Idealize.ShloMosaic Idealize.ShloMosaic.ValueIdx

/-- `-∞`, the value every maximum starts from. -/
abbrev negInf : EReal := Ideal.ofBits .f32 0xFF800000#32

/-- `|v|`. -/
def absE (v : EReal) : EReal := max v (-v)

/-- The scale of a group whose largest absolute value is `mx`: `mx / 127` if `mx > 0`, else `1`. -/
def scaleOf (mx : EReal) : EReal :=
  Scalar.select (Ideal.cmp .ogt mx (Ideal.ofBits .f32 0x00000000#32))
    (Ideal.div mx (Ideal.ofBits .f32 0x42FE0000#32)) (Ideal.ofBits .f32 0x3F800000#32)

/-- `v` quantised at scale `s`: `clamp (round (v / s)) · s`. -/
def quant (v s : EReal) : EReal :=
  min (Ideal.ofBits .f32 0x42FE0000#32)
    (max (Ideal.ofBits .f32 0xC2FE0000#32) (Ideal.liftRound Ideal.roundHalfEven (Ideal.div v s))) * s

/-- The largest of 32 values. -/
def max1 (f : Fin 32 → EReal) : EReal := Finset.univ.fold max negInf f

/-- The largest of 32 × 32 values: the largest over `j` of the largest over `l`. -/
def max2 (f : Fin 32 → Fin 32 → EReal) : EReal := Finset.univ.fold max negInf fun j => max1 (f j)

/-- Entry `j` of the group of 32 that `e` lies in. -/
def at32 (e : Fin 2048) (j : Fin 32) : Fin 2048 :=
  ⟨32 * (e.val / 32) + j.val, by have := e.isLt; have := j.isLt; omega⟩

/-- A row of 2048 entries quantised in groups of 32. -/
def qRow (row : Fin 2048 → EReal) (d : Fin 2048) : EReal :=
  quant (row d) (scaleOf (max1 fun l => absE (row (at32 d l))))

/-- A 2048 × 2048 matrix quantised in 32 × 32 tiles. -/
def qMat (w : (⟨2, ![2048, 2048]⟩ : Shape).Idx → EReal) (e d : Fin 2048) : EReal :=
  quant (w (ix2 e d)) (scaleOf (max2 fun j l => absE (w (ix2 (at32 e j) (at32 d l)))))

/-- The result: quantised activation times quantised weight, contracted over the last axes, plus the bias. -/
def result (x : (⟨3, ![4, 4096, 2048]⟩ : Shape).Idx → EReal) (w : (⟨2, ![2048, 2048]⟩ : Shape).Idx → EReal)
    (b : (⟨1, ![2048]⟩ : Shape).Idx → EReal) : (⟨3, ![4, 4096, 2048]⟩ : Shape).Idx → EReal :=
  fun i => (∑ d : Fin 2048, qRow (fun d' => x (ix3 (i 0) (i 1) d')) d * qMat w (i 2) d) + b (ix1 (i 2))

/-! ## A fold of `max` depends only on the values it ranges over -/

/-- Two folds of `max` from the same start are equal when each value of either is met by a value of the other. -/
theorem fold_max_congr_of_exists {ι κ : Type} (S : Finset ι) (T : Finset κ) (f : ι → EReal) (g : κ → EReal) (b : EReal)
    (h1 : ∀ i ∈ S, ∃ k ∈ T, f i = g k) (h2 : ∀ k ∈ T, ∃ i ∈ S, g k = f i) :
    S.fold max b f = T.fold max b g := by
  apply le_antisymm
  · refine (Finset.fold_max_le _).2 ⟨(Finset.le_fold_max _).2 (Or.inl le_rfl), fun i hi => ?_⟩
    obtain ⟨k, hk, e⟩ := h1 i hi
    exact (Finset.le_fold_max _).2 (Or.inr ⟨k, hk, e.le⟩)
  · refine (Finset.fold_max_le _).2 ⟨(Finset.le_fold_max _).2 (Or.inl le_rfl), fun k hk => ?_⟩
    obtain ⟨i, hi, e⟩ := h2 k hk
    exact (Finset.le_fold_max _).2 (Or.inr ⟨i, hi, e.le⟩)

/-- A fold of `max` over a set whose values are exactly the `f l` is `max1 f`. -/
theorem fold_eq_max1 {ι : Type} (S : Finset ι) (x : ι → EReal) (f : Fin 32 → EReal)
    (h1 : ∀ i ∈ S, ∃ l, x i = f l) (h2 : ∀ l, ∃ i ∈ S, f l = x i) :
    S.fold max negInf x = max1 f :=
  fold_max_congr_of_exists S Finset.univ x f negInf
    (fun i hi => let ⟨l, e⟩ := h1 i hi; ⟨l, Finset.mem_univ _, e⟩) (fun l _ => h2 l)

/-- A fold of `max` over a set whose values are exactly the `f j l` is `max2 f`. -/
theorem fold_eq_max2 {ι : Type} (S : Finset ι) (x : ι → EReal) (f : Fin 32 → Fin 32 → EReal)
    (h1 : ∀ i ∈ S, ∃ j l, x i = f j l) (h2 : ∀ j l, ∃ i ∈ S, f j l = x i) :
    S.fold max negInf x = max2 f := by
  unfold max2 max1
  apply le_antisymm
  · refine (Finset.fold_max_le _).2 ⟨(Finset.le_fold_max _).2 (Or.inl le_rfl), fun i hi => ?_⟩
    obtain ⟨j, l, e⟩ := h1 i hi
    exact (Finset.le_fold_max _).2 (Or.inr ⟨j, Finset.mem_univ _,
      (Finset.le_fold_max _).2 (Or.inr ⟨l, Finset.mem_univ _, e.le⟩)⟩)
  · refine (Finset.fold_max_le _).2 ⟨(Finset.le_fold_max _).2 (Or.inl le_rfl), fun j _ => ?_⟩
    refine (Finset.fold_max_le _).2 ⟨(Finset.le_fold_max _).2 (Or.inl le_rfl), fun l _ => ?_⟩
    obtain ⟨i, hi, e⟩ := h2 j l
    exact (Finset.le_fold_max _).2 (Or.inr ⟨i, hi, e.le⟩)

end Cert.Quant

end
-- ==== Proof.Body0.lean ====
/-
  What the weight-quantising body stores, entry by entry.

  The body views its 256 × 2048 block as 8 × 32 × 64 × 32 — entry (p, q) is (p / 32, p % 32, q / 32, q % 32) —,
  takes the largest absolute value over the last axis and then over the second, so that (a, ·, c, ·) shares one
  maximum: that of the 32 × 32 tile of rows 32a … 32a + 31 and columns 32c … 32c + 31.  Every entry is then
  quantised at its tile's scale.
-/
import proofs.«142055_j16587163697535_2_alg».proof.Proof.Gen.KernelIdeal.Skeleton
import proofs.«142055_j16587163697535_2_alg».proof.Proof.Spec
import Idealize.ShloMosaic.Lib.Pipeline.Value
import Idealize.ShloMosaic.Lib.ValueIdx
import Idealize.ShloMosaic.PureOps.Ideal.Laws

noncomputable section

namespace Cert.KernelIdeal.Body0

open Cert.KernelIdeal Cert.KernelIdeal.Gen Idealize.ShloMosaic Idealize.ShloMosaic.ValueIdx Cert.Quant

/-- Row `j` of the group of 32 rows that row `p` of a 256-row block lies in. -/
def rowAt (p : Fin 256) (j : Fin 32) : Fin 256 :=
  ⟨32 * (p.val / 32) + j.val, by have := p.isLt; have := j.isLt; omega⟩

/-! ## The layout operations at an index -/

theorem cast42 {α : Type} (v : S8x32x64x32.Idx → α) (p : Fin 256) (q : Fin 2048) :
    shapeCast S256x2048 v Facts₀.shapeCasts_S8x32x64x32_S256x2048 (ix2 p q)
      = v (ix4 (⟨p.val / 32, by have := p.isLt; omega⟩ : Fin 8) (⟨p.val % 32, by omega⟩ : Fin 32)
            (⟨q.val / 32, by have := q.isLt; omega⟩ : Fin 64) (⟨q.val % 32, by omega⟩ : Fin 32)) := by
  refine shapeCast_apply v _ _ _ ?_
  rw [Shape.rowMajor_val_two, Shape.rowMajor_val_four]
  have := p.isLt; have := q.isLt
  show ((p.val / 32 * 32 + p.val % 32) * 64 + q.val / 32) * 32 + q.val % 32 = p.val * 2048 + q.val
  omega

theorem cast24 {α : Type} (v : S256x2048.Idx → α) (a : Fin 8) (j : Fin 32) (c : Fin 64) (l : Fin 32) :
    shapeCast S8x32x64x32 v Facts₀.shapeCasts_S256x2048_S8x32x64x32 (ix4 a j c l)
      = v (ix2 (⟨32 * a.val + j.val, by have := a.isLt; have := j.isLt; omega⟩ : Fin 256)
            (⟨32 * c.val + l.val, by have := c.isLt; have := l.isLt; omega⟩ : Fin 2048)) := by
  refine shapeCast_apply v _ _ _ ?_
  rw [Shape.rowMajor_val_two, Shape.rowMajor_val_four]
  have := a.isLt; have := j.isLt; have := c.isLt; have := l.isLt
  show (32 * a.val + j.val) * 2048 + (32 * c.val + l.val) = ((a.val * 32 + j.val) * 64 + c.val) * 32 + l.val
  omega

theorem bcast4 {α : Type} (v : S8x1x64x1.Idx → α) (a : Fin 8) (j : Fin 32) (c : Fin 64) (l : Fin 32) :
    broadcastTo S8x32x64x32 v Facts₀.broadcasts_S8x1x64x1_S8x32x64x32 (ix4 a j c l)
      = v (ix4 a (0 : Fin 1) c (0 : Fin 1)) := by
  refine broadcastTo_apply v _ _ _ (fun x => ?_)
  match x with
  | ⟨0, _⟩ => show a.val = if (8 : Nat) = 1 then 0 else a.val; rw [if_neg (by decide)]
  | ⟨1, _⟩ => show (0 : Nat) = if (1 : Nat) = 1 then 0 else j.val; rw [if_pos rfl]
  | ⟨2, _⟩ => show c.val = if (64 : Nat) = 1 then 0 else c.val; rw [if_neg (by decide)]
  | ⟨3, _⟩ => show (0 : Nat) = if (1 : Nat) = 1 then 0 else l.val; rw [if_pos rfl]

theorem cast34 {α : Type} (v : S8x64x1.Idx → α) (a : Fin 8) (c : Fin 64) :
    shapeCast S8x1x64x1 v Facts₀.shapeCasts_S8x64x1_S8x1x64x1 (ix4 a (0 : Fin 1) c (0 : Fin 1))
      = v (ix3 a c (0 : Fin 1)) := by
  refine shapeCast_apply v _ _ _ ?_
  rw [Shape.rowMajor_val_three, Shape.rowMajor_val_four]
  show (a.val * 64 + c.val) * 1 + 0 = ((a.val * 1 + 0) * 64 + c.val) * 1 + 0
  omega

theorem cast34' {α : Type} (v : S8x32x64.Idx → α) (a : Fin 8) (j : Fin 32) (c : Fin 64) :
    shapeCast S8x32x64x1 v Facts₀.shapeCasts_S8x32x64_S8x32x64x1 (ix4 a j c (0 : Fin 1))
      = v (ix3 a j c) := by
  refine shapeCast_apply v _ _ _ ?_
  rw [Shape.rowMajor_val_three, Shape.rowMajor_val_four]
  show (a.val * 32 + j.val) * 64 + c.val = ((a.val * 32 + j.val) * 64 + c.val) * 1 + 0
  omega

/-- The maximum over the second axis. -/
theorem maxAxis1 (v : FVec Ideal S8x32x64x1 .f32) (a : Fin 8) (c : Fin 64) :
    multiReduction .maximumf [1] S8x64x1 v 0xFF800000#32 Facts₀.reduces_S8x32x64x1_S8x64x1 (.inl rfl) rfl (ix3 a c (0 : Fin 1))
      = max1 fun j => v (ix4 a j c (0 : Fin 1)) := by
  refine (Ideal.multiReduction_maximumf_single v 0xFF800000#32 Facts₀.reduces_S8x32x64x1_S8x64x1 (.inl rfl) rfl
    (ix3 a c (0 : Fin 1))).trans ?_
  unfold max1
  refine congrArg (Finset.fold max _ · _) (funext fun j => congrArg v (funext fun x => ?_))
  match x with
  | ⟨0, _⟩ => rfl
  | ⟨1, _⟩ => rfl
  | ⟨2, _⟩ => rfl
  | ⟨3, _⟩ => rfl

/-- The maximum over the last axis. -/
theorem maxAxis3 (v : FVec Ideal S8x32x64x32 .f32) (a : Fin 8) (j : Fin 32) (c : Fin 64) :
    multiReduction .maximumf [3] S8x32x64 v 0xFF800000#32 Facts₀.reduces_S8x32x64x32_S8x32x64 (.inl rfl) rfl (ix3 a j c)
      = max1 fun l => v (ix4 a j c l) := by
  refine (Ideal.multiReduction_maximumf_single v 0xFF800000#32 Facts₀.reduces_S8x32x64x32_S8x32x64 (.inl rfl) rfl
    (ix3 a j c)).trans ?_
  unfold max1
  refine congrArg (Finset.fold max _ · _) (funext fun l => congrArg v (funext fun x => ?_))
  match x with
  | ⟨0, _⟩ => rfl
  | ⟨1, _⟩ => rfl
  | ⟨2, _⟩ => rfl
  | ⟨3, _⟩ => rfl

/-! ## The pointwise operations the library has no index lemma for -/

theorem absf_at {s : Shape} (a : FVec Ideal s .f32) (i : s.Idx) : absf a i = absE (a i) := rfl
theorem roundeven_at {s : Shape} (a : FVec Ideal s .f32) (i : s.Idx) :
    roundeven a i = Ideal.liftRound Ideal.roundHalfEven (a i) := rfl

/-! ## The stored value -/

/-- The tile maximum as the body computes it, read at tile (a, c): the largest `|x0|` over the tile's 32 rows and
    32 columns. -/
theorem tileMax_apply (x0 : FVec Ideal S256x2048 .f32) (a : Fin 8) (c : Fin 64) :
    shapeCast S8x1x64x1
        (multiReduction .maximumf [1] S8x64x1
          (shapeCast S8x32x64x1
            (multiReduction .maximumf [3] S8x32x64
              (absf (shapeCast S8x32x64x32 x0 Facts₀.shapeCasts_S256x2048_S8x32x64x32))
              0xFF800000#32 Facts₀.reduces_S8x32x64x32_S8x32x64 (.inl rfl) rfl)
            Facts₀.shapeCasts_S8x32x64_S8x32x64x1)
          0xFF800000#32 Facts₀.reduces_S8x32x64x1_S8x64x1 (.inl rfl) rfl)
        Facts₀.shapeCasts_S8x64x1_S8x1x64x1 (ix4 a (0 : Fin 1) c (0 : Fin 1))
      = max2 fun j l => absE (x0 (ix2 (⟨32 * a.val + j.val, by have := a.isLt; have := j.isLt; omega⟩ : Fin 256)
            (⟨32 * c.val + l.val, by have := c.isLt; have := l.isLt; omega⟩ : Fin 2048))) := by
  refine (cast34 _ a c).trans ((maxAxis1 _ a c).trans ?_)
  unfold max2
  refine congrArg (Finset.fold max _ · _) (funext fun j => ?_)
  refine (cast34' _ a j c).trans ((maxAxis3 _ a j c).trans ?_)
  refine congrArg max1 (funext fun l => ?_)
  exact (absf_at _ _).trans (congrArg absE (cast24 x0 a j c l))

/-- The scale of every tile of the block, as the body computes it (one entry per tile). -/
def scales (x0 : FVec Ideal S256x2048 .f32) : FVec Ideal S8x1x64x1 .f32 :=
  let mx : FVec Ideal S8x1x64x1 .f32 := shapeCast S8x1x64x1
        (multiReduction .maximumf [1] S8x64x1
          (shapeCast S8x32x64x1
            (multiReduction .maximumf [3] S8x32x64
              (absf (shapeCast S8x32x64x32 x0 Facts₀.shapeCasts_S256x2048_S8x32x64x32))
              0xFF800000#32 Facts₀.reduces_S8x32x64x32_S8x32x64 (.inl rfl) rfl)
            Facts₀.shapeCasts_S8x32x64_S8x32x64x1)
          0xFF800000#32 Facts₀.reduces_S8x32x64x1_S8x64x1 (.inl rfl) rfl)
        Facts₀.shapeCasts_S8x64x1_S8x1x64x1
  select (cmpf .ogt mx (broadcast S8x1x64x1 (Scalar.ofBits .f32 0x00000000#32)))
    (divf mx (broadcast S8x1x64x1 (Scalar.ofBits .f32 0x42FE0000#32)))
    (broadcast S8x1x64x1 (Scalar.ofBits .f32 0x3F800000#32))

/-- The quantised block in its 8 × 32 × 64 × 32 view. -/
def quantised (x0 : FVec Ideal S256x2048 .f32) : FVec Ideal S8x32x64x32 .f32 :=
  let v1 : FVec Ideal S8x32x64x32 .f32 := shapeCast S8x32x64x32 x0 Facts₀.shapeCasts_S256x2048_S8x32x64x32
  let bs : FVec Ideal S8x32x64x32 .f32 := broadcastTo S8x32x64x32 (scales x0) Facts₀.broadcasts_S8x1x64x1_S8x32x64x32
  mulf (minimumf (broadcast S8x32x64x32 (Scalar.ofBits .f32 0x42FE0000#32))
      (maximumf (broadcast S8x32x64x32 (Scalar.ofBits .f32 0xC2FE0000#32)) (roundeven (divf v1 bs)))) bs

/-- The stored value is the quantised block viewed as 256 × 2048 (the narrowing of the float format changes
    nothing over the extended reals). -/
theorem pay_eq (x0 : FVec Ideal S256x2048 .f32) :
    k0_pay1 (F := Ideal) x0 = shapeCast S256x2048 (quantised x0) Facts₀.shapeCasts_S8x32x64x32_S256x2048 := rfl

/-- A scale read at an index: the comparison, the quotient and the choice between them are taken entry by entry. -/
theorem scale_at (mx : FVec Ideal S8x1x64x1 .f32) (i : S8x1x64x1.Idx) :
    select (cmpf .ogt mx (broadcast S8x1x64x1 (Scalar.ofBits .f32 0x00000000#32)))
        (divf mx (broadcast S8x1x64x1 (Scalar.ofBits .f32 0x42FE0000#32)))
        (broadcast S8x1x64x1 (Scalar.ofBits .f32 0x3F800000#32)) i
      = scaleOf (mx i) := by
  unfold scaleOf
  simp only [select_apply, cmpf_apply, divf_apply, broadcast_apply, Ideal.cmpf_def, Ideal.ofBits_def]

/-- The scale of tile (a, c). -/
theorem scales_apply (x0 : FVec Ideal S256x2048 .f32) (a : Fin 8) (c : Fin 64) :
    scales x0 (ix4 a (0 : Fin 1) c (0 : Fin 1))
      = scaleOf (max2 fun j l => absE (x0 (ix2 (⟨32 * a.val + j.val, by have := a.isLt; have := j.isLt; omega⟩ : Fin 256)
            (⟨32 * c.val + l.val, by have := c.isLt; have := l.isLt; omega⟩ : Fin 2048)))) := by
  unfold scales
  exact (scale_at _ (ix4 a (0 : Fin 1) c (0 : Fin 1))).trans (congrArg scaleOf (tileMax_apply x0 a c))

/-- The quantisation read at an index: every operation of it is taken entry by entry. -/
theorem quant_at (v bs : FVec Ideal S8x32x64x32 .f32) (i : S8x32x64x32.Idx) :
    mulf (minimumf (broadcast S8x32x64x32 (Scalar.ofBits .f32 0x42FE0000#32))
        (maximumf (broadcast S8x32x64x32 (Scalar.ofBits .f32 0xC2FE0000#32)) (roundeven (divf v bs)))) bs i
      = quant (v i) (bs i) := by
  unfold quant
  simp only [mulf_apply, minimumf_apply, maximumf_apply, broadcast_apply, divf_apply, roundeven_at, Ideal.ofBits_def]

/-- Entry (a, j, c, l) of the quantised block: the block's entry at row 32a + j, column 32c + l, quantised at
    tile (a, c)'s scale. -/
theorem quantised_apply (x0 : FVec Ideal S256x2048 .f32) (a : Fin 8) (j : Fin 32) (c : Fin 64) (l : Fin 32) :
    quantised x0 (ix4 a j c l)
      = quant (x0 (ix2 (⟨32 * a.val + j.val, by have := a.isLt; have := j.isLt; omega⟩ : Fin 256)
            (⟨32 * c.val + l.val, by have := c.isLt; have := l.isLt; omega⟩ : Fin 2048)))
          (scaleOf (max2 fun j' l' => absE (x0 (ix2 (⟨32 * a.val + j'.val, by have := a.isLt; have := j'.isLt; omega⟩ : Fin 256)
            (⟨32 * c.val + l'.val, by have := c.isLt; have := l'.isLt; omega⟩ : Fin 2048))))) := by
  unfold quantised
  exact (quant_at _ _ (ix4 a j c l)).trans
    (congrArg₂ quant (cast24 x0 a j c l) ((bcast4 (scales x0) a j c l).trans (scales_apply x0 a c)))

/-- Entry (p, q) of what the body stores: the block's entry there, quantised at the scale of its 32 × 32 tile. -/
theorem pay_apply (x0 : FVec Ideal S256x2048 .f32) (p : Fin 256) (q : Fin 2048) :
    k0_pay1 (F := Ideal) x0 (ix2 p q)
      = quant (x0 (ix2 p q)) (scaleOf (max2 fun j l => absE (x0 (ix2 (rowAt p j) (at32 q l))))) := by
  have ep : (⟨32 * (p.val / 32) + p.val % 32, by have := p.isLt; omega⟩ : Fin 256) = p :=
    Fin.ext (by show 32 * (p.val / 32) + p.val % 32 = p.val; omega)
  have eq : (⟨32 * (q.val / 32) + q.val % 32, by have := q.isLt; omega⟩ : Fin 2048) = q :=
    Fin.ext (by show 32 * (q.val / 32) + q.val % 32 = q.val; omega)
  rw [pay_eq]
  refine (cast42 _ p q).trans ?_
  refine (quantised_apply x0 (⟨p.val / 32, by have := p.isLt; omega⟩ : Fin 8) (⟨p.val % 32, by omega⟩ : Fin 32)
    (⟨q.val / 32, by have := q.isLt; omega⟩ : Fin 64) (⟨q.val % 32, by omega⟩ : Fin 32)).trans ?_
  rw [ep, eq]
  rfl

end Cert.KernelIdeal.Body0

end
-- ==== Proof.Arrays.lean ====
/-
  The two arrays the kernel's regions produce, each as one function of the arrays the region reads.

  `qArr w` is the weight quantised in 32 × 32 tiles, as a 2048 × 2048 array.  `out2d X Q B` is the second region's
  output: row r of the flattened activation `X` quantised in groups of 32, contracted with row e of `Q`, plus the
  bias row `B` at e.
-/
import proofs.«142055_j16587163697535_2_alg».proof.Proof.Spec

noncomputable section

namespace Cert.Quant

open Idealize.ShloMosaic Idealize.ShloMosaic.ValueIdx

/-- The quantised weight. -/
def qArr (w : (⟨2, ![2048, 2048]⟩ : Shape).Idx → EReal) : (⟨2, ![2048, 2048]⟩ : Shape).Idx → EReal :=
  fun i => qMat w (i 0) (i 1)

/-- The flattened result: for row r and column e, the sum over k of the quantised `X (r, k)` times `Q (e, k)`, plus
    `B (0, e)`. -/
def out2d (X : (⟨2, ![16384, 2048]⟩ : Shape).Idx → EReal) (Q : (⟨2, ![2048, 2048]⟩ : Shape).Idx → EReal)
    (B : (⟨2, ![1, 2048]⟩ : Shape).Idx → EReal) : (⟨2, ![16384, 2048]⟩ : Shape).Idx → EReal :=
  fun i => (∑ k : Fin 2048, qRow (fun d => X (ix2 (i 0) d)) k * Q (ix2 (i 1) k)) + B (ix2 (0 : Fin 1) (i 1))

end Cert.Quant

end
-- ==== Proof.Region0.lean ====
/-
  The first region, blocks to array.

  Grid point t reads rows 256t … 256t + 255 of the weight and writes back the same rows of its output.  A 32 × 32
  tile lies inside one such block of rows (256 is a multiple of 32), so what point t writes is the restriction to
  its rows of ONE array: the weight quantised in 32 × 32 tiles.  The eight blocks cover the array, so that array is
  what the output buffer holds when the region ends.
-/
import proofs.«142055_j16587163697535_2_alg».proof.Proof.Gen.KernelIdeal.Frame
import proofs.«142055_j16587163697535_2_alg».proof.Proof.Body0
import proofs.«142055_j16587163697535_2_alg».proof.Proof.Arrays
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Cert.Quant
open Idealize.ShloMosaic.Pipeline (Dat Cfg Window)

/-! ## One block -/

/-- If `x0` is rows 256T … 256T + 255 of `w`, the body's stored value at `y` is the quantised weight at the entry
    of the array that `y` is. -/
theorem block_point (x0 : FVec Ideal S256x2048 .f32) (w : S2048x2048.Idx → EReal) (T : Nat) (hT : T < 8)
    (hx : ∀ (p : Fin 256) (q : Fin 2048),
      x0 (ix2 p q) = w (ix2 (⟨256 * T + p.val, by have := p.isLt; omega⟩ : Fin 2048) q))
    (y : S256x2048.Idx) (I : S2048x2048.Idx) (h0 : (I 0).val = T * 256 + 1 * (y 0).val)
    (h1 : (I 1).val = 0 * 2048 + 1 * (y 1).val) :
    k0_pay1 (F := Ideal) x0 y = qArr w I := by
  obtain ⟨p, q, rfl⟩ : ∃ (p : Fin 256) (q : Fin 2048), y = ix2 p q := ⟨y 0, y 1, eq_ix2 y⟩
  have hlt : 256 * T + p.val < 2048 := by have := p.isLt; omega
  have hrow : ∀ j : Fin 32, (⟨256 * T + (Body0.rowAt p j).val, by have := (Body0.rowAt p j).isLt; omega⟩ : Fin 2048)
      = at32 (⟨256 * T + p.val, hlt⟩ : Fin 2048) j := fun j =>
    Fin.ext (by
      have := p.isLt; have := j.isLt
      show 256 * T + (32 * (p.val / 32) + j.val) = 32 * ((256 * T + p.val) / 32) + j.val
      omega)
  obtain ⟨e, d, rfl⟩ : ∃ (e : Fin 2048) (d : Fin 2048), I = ix2 e d := ⟨I 0, I 1, eq_ix2 I⟩
  have he : e = (⟨256 * T + p.val, hlt⟩ : Fin 2048) := Fin.ext (by
    have h0' : e.val = T * 256 + 1 * p.val := h0
    show e.val = 256 * T + p.val; omega)
  have hd : d = q := Fin.ext (by
    have h1' : d.val = 0 * 2048 + 1 * q.val := h1
    omega)
  clear h0 h1
  subst hd he
  rw [Body0.pay_apply]
  show _ = quant (w (ix2 (⟨256 * T + p.val, hlt⟩ : Fin 2048) d))
    (scaleOf (max2 fun j l => absE (w (ix2 (at32 (⟨256 * T + p.val, hlt⟩ : Fin 2048) j) (at32 d l)))))
  simp only [hx, hrow]

/-! ## The region -/

variable (V : (c : Dev nD) → (b : Ref sig .tc) → Buf (Elt Ideal) ((c : Thread nD τ).loc b))

theorem hz : (![0, 0] : Fin 2 → Nat) = fun _ => 0 := funext fun a => by fin_cases a <;> rfl

/-- Both windows' block at point `t` is block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- What point `t` writes back is block `t` of the quantised weight. -/
theorem flushed_eq (c : Dev nD) (t : Fin cfg0.N) :
    (dat0 V c).flushed 1 t = ((cfg0.win 1).blk t).view.read (Elt Ideal) (qArr (V c main_arg1)) := by
  show (cfg0.win 1).cut (grid0.coords t) ((dat0 V c).after 1 t) = _
  rw [after0_1]
  unfold out0_1
  rw [View.canon_unit_zero hz]
  simp only [View.ld_unit_zero (S := S256x2048) hz]
  obtain ⟨e0, e1, e2, e3⟩ := idx_facts t
  funext y
  show k0_pay1 (F := Ideal) (iblk0 V c 0 t) y = qArr (V c main_arg1) (((cfg0.win 1).blk t).view.emb y)
  refine block_point (iblk0 V c 0 t) (V c main_arg1) t.val t.isLt (fun p q => ?_) y (((cfg0.win 1).blk t).view.emb y) ?_ ?_
  · show V c main_arg1 (((cfg0.win 0).blk t).view.emb (ix2 p q)) = V c main_arg1 (ix2 _ q)
    refine congrArg _ (funext fun a => Fin.ext ?_)
    match a with
    | ⟨0, _⟩ => show win0_0.index t (0 : Fin 2) * 256 + 1 * p.val = 256 * t.val + p.val; omega
    | ⟨1, _⟩ => show win0_0.index t (1 : Fin 2) * 2048 + 1 * q.val = q.val; omega
  · show win0_1.index t (0 : Fin 2) * 256 + 1 * (y 0).val = t.val * 256 + 1 * (y 0).val; rw [e2]
  · show win0_1.index t (1 : Fin 2) * 2048 + 1 * (y 1).val = 0 * 2048 + 1 * (y 1).val; rw [e3]

/-- An index of the array is in point `t`'s block iff each coordinate is in the block's range on its axis. -/
theorem mem_blk (t : Fin cfg0.N) (i : S2048x2048.Idx) :
    i ∈ ((cfg0.win 1).blk t).view.set ↔ ∀ a : Fin 2, win0_1.index t a * S256x2048.size a ≤ (i a).val
      ∧ (i a).val < win0_1.index t a * S256x2048.size a + S256x2048.size a := by
  show i ∈ ((View.whole main_v0).slice (win0_1.rect t)).set ↔ _
  rw [View.set_slice_whole, Rect.mem_set_unit]
  exact Iff.rfl

/-- Every entry of the output is in the block of the point its row belongs to. -/
theorem cover (i : S2048x2048.Idx) :
    ∃ t : Fin cfg0.N, (cfg0.win 1).flush t = true ∧ i ∈ ((cfg0.win 1).blk t).view.set := by
  have hi0 : (i 0).val < 2048 := (i 0).isLt
  have hi1 : (i 1).val < 2048 := (i 1).isLt
  have ht : (i 0).val / 256 < cfg0.N := by show (i 0).val / 256 < 8; omega
  obtain ⟨e0, e1, e2, e3⟩ := idx_facts ⟨(i 0).val / 256, ht⟩
  refine ⟨⟨(i 0).val / 256, ht⟩, flush0_1 _, ?_⟩
  rw [mem_blk]
  intro a
  match a with
  | ⟨0, _⟩ =>
    show win0_1.index ⟨(i 0).val / 256, ht⟩ (0 : Fin 2) * 256 ≤ (i 0).val
      ∧ (i 0).val < win0_1.index ⟨(i 0).val / 256, ht⟩ (0 : Fin 2) * 256 + 256
    rw [e2]; show (i 0).val / 256 * 256 ≤ (i 0).val ∧ (i 0).val < (i 0).val / 256 * 256 + 256; omega
  | ⟨1, _⟩ =>
    show win0_1.index ⟨(i 0).val / 256, ht⟩ (1 : Fin 2) * 2048 ≤ (i 1).val
      ∧ (i 1).val < win0_1.index ⟨(i 0).val / 256, ht⟩ (1 : Fin 2) * 2048 + 2048
    rw [e3]; omega

/-- When the region ends its output array holds the quantised weight. -/
theorem final (c : Dev nD) : (dat0 V c).arrAt 1 cfg0.N = qArr (V c main_arg1) :=
  (dat0 V c).arrAt_eq_of_cover 1 (qArr (V c main_arg1)) (fun t _ => flushed_eq V c t) cover

end Cert.KernelIdeal.Region0

end
-- ==== Proof.Body1.lean ====
/-
  What the matrix-product body stores, entry by entry.

  The body views its 512 × 2048 block of the activation as 512 × 64 × 32 — entry (p, k) is (p, k / 32, k % 32) —,
  takes the largest absolute value over the last axis, and quantises every entry at the scale of its group of 32.
  The quantised block is then multiplied with the whole quantised weight, contracting the last axis of both, and
  the bias row is added to every row: entry (p, q) is the sum over k of the quantised (p, k) times the weight's
  (q, k), plus the bias at q.
-/
import proofs.«142055_j16587163697535_2_alg».proof.Proof.Gen.KernelIdeal.Skeleton
import proofs.«142055_j16587163697535_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body1

open Cert.KernelIdeal Cert.KernelIdeal.Gen Idealize.ShloMosaic Idealize.ShloMosaic.ValueIdx Cert.Quant

/-! ## The layout operations at an index -/

theorem cast32 {α : Type} (v : S512x64x32.Idx → α) (p : Fin 512) (q : Fin 2048) :
    shapeCast S512x2048 v Facts₀.shapeCasts_S512x64x32_S512x2048 (ix2 p q)
      = v (ix3 p (⟨q.val / 32, by have := q.isLt; omega⟩ : Fin 64) (⟨q.val % 32, by omega⟩ : Fin 32)) := by
  refine shapeCast_apply v _ _ _ ?_
  rw [Shape.rowMajor_val_two, Shape.rowMajor_val_three]
  have := p.isLt; have := q.isLt
  show (p.val * 64 + q.val / 32) * 32 + q.val % 32 = p.val * 2048 + q.val
  omega

theorem cast23 {α : Type} (v : S512x2048.Idx → α) (p : Fin 512) (g : Fin 64) (l : Fin 32) :
    shapeCast S512x64x32 v Facts₀.shapeCasts_S512x2048_S512x64x32 (ix3 p g l)
      = v (ix2 p (⟨32 * g.val + l.val, by have := g.isLt; have := l.isLt; omega⟩ : Fin 2048)) := by
  refine shapeCast_apply v _ _ _ ?_
  rw [Shape.rowMajor_val_two, Shape.rowMajor_val_three]
  have := p.isLt; have := g.isLt; have := l.isLt
  show p.val * 2048 + (32 * g.val + l.val) = (p.val * 64 + g.val) * 32 + l.val
  omega

theorem bcast3 {α : Type} (v : S512x64x1.Idx → α) (p : Fin 512) (g : Fin 64) (l : Fin 32) :
    broadcastTo S512x64x32 v Facts₀.broadcasts_S512x64x1_S512x64x32 (ix3 p g l) = v (ix3 p g (0 : Fin 1)) := by
  refine broadcastTo_apply v _ _ _ (fun x => ?_)
  match x with
  | ⟨0, _⟩ => show p.val = if (512 : Nat) = 1 then 0 else p.val; rw [if_neg (by decide)]
  | ⟨1, _⟩ => show g.val = if (64 : Nat) = 1 then 0 else g.val; rw [if_neg (by decide)]
  | ⟨2, _⟩ => show (0 : Nat) = if (1 : Nat) = 1 then 0 else l.val; rw [if_pos rfl]

theorem cast23' {α : Type} (v : S512x64.Idx → α) (p : Fin 512) (g : Fin 64) :
    shapeCast S512x64x1 v Facts₀.shapeCasts_S512x64_S512x64x1 (ix3 p g (0 : Fin 1)) = v (ix2 p g) := by
  refine shapeCast_apply v _ _ _ ?_
  rw [Shape.rowMajor_val_two, Shape.rowMajor_val_three]
  show p.val * 64 + g.val = (p.val * 64 + g.val) * 1 + 0
  omega

/-- The maximum over the last axis. -/
theorem maxAxis2 (v : FVec Ideal S512x64x32 .f32) (p : Fin 512) (g : Fin 64) :
    multiReduction .maximumf [2] S512x64 v 0xFF800000#32 Facts₀.reduces_S512x64x32_S512x64 (.inl rfl) rfl (ix2 p g)
      = max1 fun l => v (ix3 p g l) := by
  refine (Ideal.multiReduction_maximumf_single v 0xFF800000#32 Facts₀.reduces_S512x64x32_S512x64 (.inl rfl) rfl
    (ix2 p g)).trans ?_
  unfold max1
  refine congrArg (Finset.fold max _ · _) (funext fun l => congrArg v (funext fun x => ?_))
  match x with
  | ⟨0, _⟩ => rfl
  | ⟨1, _⟩ => rfl
  | ⟨2, _⟩ => rfl

theorem absf_at {s : Shape} (a : FVec Ideal s .f32) (i : s.Idx) : absf a i = absE (a i) := rfl

/-! ## The quantised activation block -/

/-- The scale of every group of 32 of the block, as the body computes it (one entry per group). -/
def scales (x0 : FVec Ideal S512x2048 .f32) : FVec Ideal S512x64x1 .f32 :=
  let mx : FVec Ideal S512x64x1 .f32 := shapeCast S512x64x1
        (multiReduction .maximumf [2] S512x64
          (absf (shapeCast S512x64x32 (shapeCast S512x2048 x0 Facts₀.shapeCasts_S512x2048_S512x2048)
            Facts₀.shapeCasts_S512x2048_S512x64x32))
          0xFF800000#32 Facts₀.reduces_S512x64x32_S512x64 (.inl rfl) rfl)
        Facts₀.shapeCasts_S512x64_S512x64x1
  select (cmpf .ogt mx (broadcast S512x64x1 (Scalar.ofBits .f32 0x00000000#32)))
    (divf mx (broadcast S512x64x1 (Scalar.ofBits .f32 0x42FE0000#32)))
    (broadcast S512x64x1 (Scalar.ofBits .f32 0x3F800000#32))

/-- The quantised block in its 512 × 64 × 32 view. -/
def quantised (x0 : FVec Ideal S512x2048 .f32) : FVec Ideal S512x64x32 .f32 :=
  let v2 : FVec Ideal S512x64x32 .f32 := shapeCast S512x64x32
    (shapeCast S512x2048 x0 Facts₀.shapeCasts_S512x2048_S512x2048) Facts₀.shapeCasts_S512x2048_S512x64x32
  let bs : FVec Ideal S512x64x32 .f32 := broadcastTo S512x64x32 (scales x0) Facts₀.broadcasts_S512x64x1_S512x64x32
  mulf (minimumf (broadcast S512x64x32 (Scalar.ofBits .f32 0x42FE0000#32))
      (maximumf (broadcast S512x64x32 (Scalar.ofBits .f32 0xC2FE0000#32)) (roundeven (divf v2 bs)))) bs

/-- The stored value: the quantised block, viewed as 512 × 2048, times the weight block, plus the bias row. -/
theorem pay_eq (x0 : FVec Ideal S512x2048 .f32) (x1 : FVec Ideal S2048x2048 .bf16) (x2 : FVec Ideal S1x2048 .f32) :
    k1_pay1 (F := Ideal) x0 x1 x2
      = addf (matmul dot_S512x2048_S2048x2048_S512x2048_1_1_0_0_n_n none
          (truncf .bf16 (shapeCast S512x2048 (quantised x0) Facts₀.shapeCasts_S512x64x32_S512x2048) Facts₀.bitsLt_bf16_f32)
          (shapeCast S2048x2048 x1 Facts₀.shapeCasts_S2048x2048_S2048x2048)
          (constant S512x2048 .f32 0x00000000#32))
        (broadcastTo S512x2048 (shapeCast S1x2048 x2 Facts₀.shapeCasts_S1x2048_S1x2048) Facts₀.broadcasts_S1x2048_S512x2048) := rfl

end Cert.KernelIdeal.Body1

end
-- ==== Proof.Quant1.lean ====
/-
  The quantised activation block of the second body, entry by entry: entry (p, k) of the block is quantised at the
  scale of the group of 32 consecutive entries of row p that k lies in.
-/
import proofs.«142055_j16587163697535_2_alg».proof.Proof.Body1

noncomputable section

namespace Cert.KernelIdeal.Body1

open Cert.KernelIdeal Cert.KernelIdeal.Gen Idealize.ShloMosaic Idealize.ShloMosaic.ValueIdx Cert.Quant

theorem roundeven_at {s : Shape} (a : FVec Ideal s .f32) (i : s.Idx) :
    roundeven a i = Ideal.liftRound Ideal.roundHalfEven (a i) := rfl

/-- The body first casts its block to its own shape, which changes nothing, and then to 512 × 64 × 32. -/
theorem cast23s {α : Type} (v : S512x2048.Idx → α) (p : Fin 512) (g : Fin 64) (l : Fin 32) :
    shapeCast S512x64x32 (shapeCast S512x2048 v Facts₀.shapeCasts_S512x2048_S512x2048)
        Facts₀.shapeCasts_S512x2048_S512x64x32 (ix3 p g l)
      = v (ix2 p (⟨32 * g.val + l.val, by have := g.isLt; have := l.isLt; omega⟩ : Fin 2048)) := by
  have e : shapeCast S512x2048 v Facts₀.shapeCasts_S512x2048_S512x2048 = v := shapeCast_self v _
  rw [e]
  exact cast23 v p g l

/-- The largest `|x0|` over group `g` of row `p`, as the body computes it. -/
theorem groupMax_apply (x0 : FVec Ideal S512x2048 .f32) (p : Fin 512) (g : Fin 64) :
    shapeCast S512x64x1
        (multiReduction .maximumf [2] S512x64
          (absf (shapeCast S512x64x32 (shapeCast S512x2048 x0 Facts₀.shapeCasts_S512x2048_S512x2048)
            Facts₀.shapeCasts_S512x2048_S512x64x32))
          0xFF800000#32 Facts₀.reduces_S512x64x32_S512x64 (.inl rfl) rfl)
        Facts₀.shapeCasts_S512x64_S512x64x1 (ix3 p g (0 : Fin 1))
      = max1 fun l => absE (x0 (ix2 p (⟨32 * g.val + l.val, by have := g.isLt; have := l.isLt; omega⟩ : Fin 2048))) := by
  refine (cast23' _ p g).trans ((maxAxis2 _ p g).trans ?_)
  refine congrArg max1 (funext fun l => ?_)
  exact (absf_at _ _).trans (congrArg absE (cast23s x0 p g l))

/-- A scale read at an index: the comparison, the quotient and the choice between them are taken entry by entry. -/
theorem scale_at (mx : FVec Ideal S512x64x1 .f32) (i : S512x64x1.Idx) :
    select (cmpf .ogt mx (broadcast S512x64x1 (Scalar.ofBits .f32 0x00000000#32)))
        (divf mx (broadcast S512x64x1 (Scalar.ofBits .f32 0x42FE0000#32)))
        (broadcast S512x64x1 (Scalar.ofBits .f32 0x3F800000#32)) i
      = scaleOf (mx i) := by
  unfold scaleOf
  simp only [select_apply, cmpf_apply, divf_apply, broadcast_apply, Ideal.cmpf_def, Ideal.ofBits_def]

/-- The scale of group `g` of row `p`. -/
theorem scales_apply (x0 : FVec Ideal S512x2048 .f32) (p : Fin 512) (g : Fin 64) :
    scales x0 (ix3 p g (0 : Fin 1))
      = scaleOf (max1 fun l => absE (x0 (ix2 p (⟨32 * g.val + l.val, by have := g.isLt; have := l.isLt; omega⟩ : Fin 2048)))) := by
  unfold scales
  exact (scale_at _ (ix3 p g (0 : Fin 1))).trans (congrArg scaleOf (groupMax_apply x0 p g))

/-- The quantisation read at an index: every operation of it is taken entry by entry. -/
theorem quant_at (v bs : FVec Ideal S512x64x32 .f32) (i : S512x64x32.Idx) :
    mulf (minimumf (broadcast S512x64x32 (Scalar.ofBits .f32 0x42FE0000#32))
        (maximumf (broadcast S512x64x32 (Scalar.ofBits .f32 0xC2FE0000#32)) (roundeven (divf v bs)))) bs i
      = quant (v i) (bs i) := by
  unfold quant
  simp only [mulf_apply, minimumf_apply, maximumf_apply, broadcast_apply, divf_apply, roundeven_at, Ideal.ofBits_def]

/-- Entry (p, g, l) of the quantised block: the block's entry at row p, column 32g + l, quantised at the scale of
    its group. -/
theorem quantised_apply (x0 : FVec Ideal S512x2048 .f32) (p : Fin 512) (g : Fin 64) (l : Fin 32) :
    quantised x0 (ix3 p g l)
      = quant (x0 (ix2 p (⟨32 * g.val + l.val, by have := g.isLt; have := l.isLt; omega⟩ : Fin 2048)))
          (scaleOf (max1 fun l' => absE (x0 (ix2 p (⟨32 * g.val + l'.val, by have := g.isLt; have := l'.isLt; omega⟩ : Fin 2048))))) := by
  unfold quantised
  exact (quant_at _ _ (ix3 p g l)).trans
    (congrArg₂ quant (cast23s x0 p g l) ((bcast3 (scales x0) p g l).trans (scales_apply x0 p g)))

/-- Entry (p, k) of the quantised block in its 512 × 2048 view: row `p` of the block quantised in groups of 32. -/
theorem qx_apply (x0 : FVec Ideal S512x2048 .f32) (p : Fin 512) (k : Fin 2048) :
    (truncf .bf16 (shapeCast S512x2048 (quantised x0) Facts₀.shapeCasts_S512x64x32_S512x2048) Facts₀.bitsLt_bf16_f32 :
        FVec Ideal S512x2048 .bf16) (ix2 p k)
      = qRow (fun d => x0 (ix2 p d)) k := by
  have ek : (⟨32 * (k.val / 32) + k.val % 32, by have := k.isLt; omega⟩ : Fin 2048) = k :=
    Fin.ext (by show 32 * (k.val / 32) + k.val % 32 = k.val; omega)
  refine (truncf_apply (ψ := .bf16) (shapeCast S512x2048 (quantised x0) Facts₀.shapeCasts_S512x64x32_S512x2048)
    Facts₀.bitsLt_bf16_f32 (ix2 p k)).trans ((cast32 (quantised x0) p k).trans ?_)
  refine (quantised_apply x0 p (⟨k.val / 32, by have := k.isLt; omega⟩ : Fin 64) (⟨k.val % 32, by omega⟩ : Fin 32)).trans ?_
  rw [ek]
  rfl

end Cert.KernelIdeal.Body1

end
-- ==== Proof.Matmul1.lean ====
/-
  The matrix product of the second body at an entry: contracting the last axis of both operands into a zero
  accumulator, entry (p, q) is the sum over k of A (p, k) · B (q, k).
-/
import proofs.«142055_j16587163697535_2_alg».proof.Proof.Gen.KernelIdeal.Skeleton
import Idealize.ShloMosaic.Lib.ValueIdx
import Idealize.ShloMosaic.PureOps.Ideal.Laws

noncomputable section

namespace Cert.KernelIdeal.Body1

open Cert.KernelIdeal Cert.KernelIdeal.Gen Idealize.ShloMosaic Idealize.ShloMosaic.ValueIdx

theorem lhs0 (i : S512x2048.Idx) (k : dot_S512x2048_S2048x2048_S512x2048_1_1_0_0_n_n.contr.Idx) :
    (dot_S512x2048_S2048x2048_S512x2048_1_1_0_0_n_n.lhsIdx i k 0).val = (i 0).val := by
  unfold DotDims.lhsIdx
  rw [dif_neg (show ¬(0 : Fin S512x2048.rank) ∈ dot_S512x2048_S2048x2048_S512x2048_1_1_0_0_n_n.lhsBatch by decide),
    dif_pos (show (0 : Fin S512x2048.rank) ∈ dot_S512x2048_S2048x2048_S512x2048_1_1_0_0_n_n.lhsNonContracting by decide)]
  rfl

theorem rhs0 (i : S512x2048.Idx) (k : dot_S512x2048_S2048x2048_S512x2048_1_1_0_0_n_n.contr.Idx) :
    (dot_S512x2048_S2048x2048_S512x2048_1_1_0_0_n_n.rhsIdx i k 0).val = (i 1).val := by
  unfold DotDims.rhsIdx
  rw [dif_neg (show ¬(0 : Fin S2048x2048.rank) ∈ dot_S512x2048_S2048x2048_S512x2048_1_1_0_0_n_n.rhsBatch by decide),
    dif_pos (show (0 : Fin S2048x2048.rank) ∈ dot_S512x2048_S2048x2048_S512x2048_1_1_0_0_n_n.rhsNonContracting by decide)]
  rfl

/-- The product into a zero accumulator, contracting the last axis of both operands: entry (p, q) is the sum over
    `k` of `A (p, k) · B (q, k)`. -/
theorem matmul_at (A : FVec Ideal S512x2048 .bf16) (B : FVec Ideal S2048x2048 .bf16) (p : Fin 512) (q : Fin 2048) :
    matmul dot_S512x2048_S2048x2048_S512x2048_1_1_0_0_n_n none A B (constant S512x2048 .f32 0x00000000#32) (ix2 p q)
      = ∑ k : Fin 2048, A (ix2 p k) * B (ix2 q k) := by
  simp only [matmul]
  rw [Ideal.matmul_constant_zero_apply,
    ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q)
      ((contrEquiv1 dot_S512x2048_S2048x2048_S512x2048_1_1_0_0_n_n 2048 rfl rfl).symm k) = ix2 p k :=
    funext fun a => Fin.ext (by
      match a with
      | ⟨0, _⟩ => exact lhs0 _ _
      | ⟨1, _⟩ => exact (dot_S512x2048_S2048x2048_S512x2048_1_1_0_0_n_n.lhsIdx_val_of_single rfl _ _).trans hk)
  have er : dot_S512x2048_S2048x2048_S512x2048_1_1_0_0_n_n.rhsIdx (ix2 p q)
      ((contrEquiv1 dot_S512x2048_S2048x2048_S512x2048_1_1_0_0_n_n 2048 rfl rfl).symm k) = ix2 q k :=
    funext fun a => Fin.ext (by
      match a with
      | ⟨0, _⟩ => exact rhs0 _ _
      | ⟨1, _⟩ => exact (dot_S512x2048_S2048x2048_S512x2048_1_1_0_0_n_n.rhsIdx_val_of_single rfl _ _).trans hk)
  rw [el, er]

end Cert.KernelIdeal.Body1

end
-- ==== Proof.Pay1.lean ====
/-
  What the matrix-product body stores, entry by entry: entry (p, q) is the sum over k of the block's entry (p, k),
  quantised in its group of 32 of row p, times the weight's entry (q, k), plus the bias row at q.
-/
import proofs.«142055_j16587163697535_2_alg».proof.Proof.Quant1
import proofs.«142055_j16587163697535_2_alg».proof.Proof.Matmul1
import Idealize.ShloMosaic.Lib.ValueLayout

noncomputable section

namespace Cert.KernelIdeal.Body1

open Cert.KernelIdeal Cert.KernelIdeal.Gen Idealize.ShloMosaic Idealize.ShloMosaic.ValueIdx Cert.Quant

/-- The stored value at (p, q): the two casts of the weight and of the bias row to their own shapes change nothing,
    the product at (p, q) is the sum over the contracted axis, its left operand at (p, k) is row `p` quantised in
    groups of 32, and the bias row is the same for every row. -/
theorem pay_apply (x0 : FVec Ideal S512x2048 .f32) (x1 : FVec Ideal S2048x2048 .bf16) (x2 : FVec Ideal S1x2048 .f32)
    (p : Fin 512) (q : Fin 2048) :
    k1_pay1 (F := Ideal) x0 x1 x2 (ix2 p q)
      = (∑ k : Fin 2048, qRow (fun d => x0 (ix2 p d)) k * x1 (ix2 q k)) + x2 (ix2 (0 : Fin 1) q) := by
  have e1 : shapeCast S2048x2048 x1 Facts₀.shapeCasts_S2048x2048_S2048x2048 = x1 := shapeCast_self x1 _
  have e2 : shapeCast S1x2048 x2 Facts₀.shapeCasts_S1x2048_S1x2048 = x2 := shapeCast_self x2 _
  have hm : matmul dot_S512x2048_S2048x2048_S512x2048_1_1_0_0_n_n none
        (truncf .bf16 (shapeCast S512x2048 (quantised x0) Facts₀.shapeCasts_S512x64x32_S512x2048) Facts₀.bitsLt_bf16_f32)
        x1 (constant S512x2048 .f32 0x00000000#32) (ix2 p q)
      = ∑ k : Fin 2048, qRow (fun d => x0 (ix2 p d)) k * x1 (ix2 q k) :=
    (matmul_at _ x1 p q).trans (Finset.sum_congr rfl fun k _ => congrArg (· * x1 (ix2 q k)) (qx_apply x0 p k))
  have hb : broadcastTo S512x2048 x2 Facts₀.broadcasts_S1x2048_S512x2048 (ix2 p q) = x2 (ix2 (0 : Fin 1) q) :=
    broadcastTo_1b_ab_apply x2 _ p q
  refine (congrFun (pay_eq x0 x1 x2) (ix2 p q)).trans ?_
  rw [e1, e2]
  exact (addf_apply _ _ (ix2 p q)).trans (congrArg₂ (· + ·) hm hb)

end Cert.KernelIdeal.Body1

end
-- ==== Proof.Region1.lean ====
/-
  The second region, blocks to array.

  Grid point t reads rows 512t … 512t + 511 of the flattened activation, the whole quantised weight and the whole
  bias row, and writes back rows 512t … 512t + 511 of its output.  A row's groups of 32 lie inside the row, so what
  point t writes is the restriction to its rows of ONE array: row r of the activation quantised in groups of 32,
  contracted with the rows of the weight, plus the bias.  The 32 blocks cover the output.
-/
import proofs.«142055_j16587163697535_2_alg».proof.Proof.Gen.KernelIdeal.Frame
import proofs.«142055_j16587163697535_2_alg».proof.Proof.Pay1
import proofs.«142055_j16587163697535_2_alg».proof.Proof.Arrays
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Cert.Quant
open Idealize.ShloMosaic.Pipeline (Dat Cfg Window)

/-! ## One block -/

/-- If `x0` is rows 512T … 512T + 511 of `X`, `x1` is `Q` and `x2` is `B`, the body's stored value at `y` is the
    flattened result at the entry of the array that `y` is. -/
theorem block_point (x0 : FVec Ideal S512x2048 .f32) (x1 : FVec Ideal S2048x2048 .bf16) (x2 : FVec Ideal S1x2048 .f32)
    (X : S16384x2048.Idx → EReal) (Q : S2048x2048.Idx → EReal) (B : S1x2048.Idx → EReal) (T : Nat) (hT : T < 32)
    (hx0 : ∀ (p : Fin 512) (q : Fin 2048),
      x0 (ix2 p q) = X (ix2 (⟨512 * T + p.val, by have := p.isLt; omega⟩ : Fin 16384) q))
    (hx1 : ∀ (e k : Fin 2048), x1 (ix2 e k) = Q (ix2 e k))
    (hx2 : ∀ e : Fin 2048, x2 (ix2 (0 : Fin 1) e) = B (ix2 (0 : Fin 1) e))
    (y : S512x2048.Idx) (I : S16384x2048.Idx) (h0 : (I 0).val = T * 512 + 1 * (y 0).val)
    (h1 : (I 1).val = 0 * 2048 + 1 * (y 1).val) :
    k1_pay1 (F := Ideal) x0 x1 x2 y = out2d X Q B I := by
  obtain ⟨p, q, rfl⟩ : ∃ (p : Fin 512) (q : Fin 2048), y = ix2 p q := ⟨y 0, y 1, eq_ix2 y⟩
  have hlt : 512 * T + p.val < 16384 := by have := p.isLt; omega
  obtain ⟨r, e, rfl⟩ : ∃ (r : Fin 16384) (e : Fin 2048), I = ix2 r e := ⟨I 0, I 1, eq_ix2 I⟩
  have hr : r = (⟨512 * T + p.val, hlt⟩ : Fin 16384) := Fin.ext (by
    have h0' : r.val = T * 512 + 1 * p.val := h0
    show r.val = 512 * T + p.val; omega)
  have he : e = q := Fin.ext (by
    have h1' : e.val = 0 * 2048 + 1 * q.val := h1
    omega)
  clear h0 h1
  subst he hr
  rw [Body1.pay_apply]
  show _ = (∑ k : Fin 2048, qRow (fun d => X (ix2 (⟨512 * T + p.val, hlt⟩ : Fin 16384) d)) k * Q (ix2 e k))
    + B (ix2 (0 : Fin 1) e)
  simp only [hx0, hx1, hx2]

/-! ## The region -/

variable (V : (c : Dev nD) → (b : Ref sig .tc) → Buf (Elt Ideal) ((c : Thread nD τ).loc b))

theorem hz : (![0, 0] : Fin 2 → Nat) = fun _ => 0 := funext fun a => by fin_cases a <;> rfl

/-- The activation's and the output's block at point `t` is block row `t`; the weight's and the bias's is the
    whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0)

/-- What point `t` writes back is block `t` of the flattened result of the arrays the region finds. -/
theorem flushed_eq (c : Dev nD) (t : Fin cfg1.N) :
    (dat1 V c).flushed 3 t
      = ((cfg1.win 3).blk t).view.read (Elt Ideal) (out2d (V c main_v1) (V c main_v0) (V c main_v2)) := by
  show (cfg1.win 3).cut (grid1.coords t) ((dat1 V c).after 3 t) = _
  rw [after1_3]
  unfold out1_3
  rw [View.canon_unit_zero hz]
  simp only [View.ld_unit_zero (S := S512x2048) hz, View.ld_unit_zero (S := S2048x2048) hz,
    View.ld_unit_zero (S := S1x2048) hz]
  obtain ⟨e0, e1, e2, e3, e4, e5, e6, e7⟩ := idx_facts t
  funext y
  show k1_pay1 (F := Ideal) (iblk1 V c 0 t) (iblk1 V c 1 t) (iblk1 V c 2 t) y
    = out2d (V c main_v1) (V c main_v0) (V c main_v2) (((cfg1.win 3).blk t).view.emb y)
  refine block_point (iblk1 V c 0 t) (iblk1 V c 1 t) (iblk1 V c 2 t) (V c main_v1) (V c main_v0) (V c main_v2)
    t.val t.isLt (fun p q => ?_) (fun e k => ?_) (fun e => ?_) y (((cfg1.win 3).blk t).view.emb y) ?_ ?_
  · show V c main_v1 (((cfg1.win 0).blk t).view.emb (ix2 p q)) = V c main_v1 (ix2 _ q)
    refine congrArg _ (funext fun a => Fin.ext ?_)
    match a with
    | ⟨0, _⟩ => show win1_0.index t (0 : Fin 2) * 512 + 1 * p.val = 512 * t.val + p.val; omega
    | ⟨1, _⟩ => show win1_0.index t (1 : Fin 2) * 2048 + 1 * q.val = q.val; omega
  · show V c main_v0 (((cfg1.win 1).blk t).view.emb (ix2 e k)) = V c main_v0 (ix2 e k)
    refine congrArg _ (funext fun a => Fin.ext ?_)
    match a with
    | ⟨0, _⟩ => show win1_1.index t (0 : Fin 2) * 2048 + 1 * e.val = e.val; omega
    | ⟨1, _⟩ => show win1_1.index t (1 : Fin 2) * 2048 + 1 * k.val = k.val; omega
  · show V c main_v2 (((cfg1.win 2).blk t).view.emb (ix2 (0 : Fin 1) e)) = V c main_v2 (ix2 (0 : Fin 1) e)
    refine congrArg _ (funext fun a => Fin.ext ?_)
    match a with
    | ⟨0, _⟩ => show win1_2.index t (0 : Fin 2) * 1 + 1 * 0 = 0; omega
    | ⟨1, _⟩ => show win1_2.index t (1 : Fin 2) * 2048 + 1 * e.val = e.val; omega
  · show win1_3.index t (0 : Fin 2) * 512 + 1 * (y 0).val = t.val * 512 + 1 * (y 0).val; rw [e6]
  · show win1_3.index t (1 : Fin 2) * 2048 + 1 * (y 1).val = 0 * 2048 + 1 * (y 1).val; rw [e7]

/-- An index of the array is in point `t`'s block iff each coordinate is in the block's range on its axis. -/
theorem mem_blk (t : Fin cfg1.N) (i : S16384x2048.Idx) :
    i ∈ ((cfg1.win 3).blk t).view.set ↔ ∀ a : Fin 2, win1_3.index t a * S512x2048.size a ≤ (i a).val
      ∧ (i a).val < win1_3.index t a * S512x2048.size a + S512x2048.size a := by
  show i ∈ ((View.whole main_v3).slice (win1_3.rect t)).set ↔ _
  rw [View.set_slice_whole, Rect.mem_set_unit]
  exact Iff.rfl

/-- Every entry of the output is in the block of the point its row belongs to. -/
theorem cover (i : S16384x2048.Idx) :
    ∃ t : Fin cfg1.N, (cfg1.win 3).flush t = true ∧ i ∈ ((cfg1.win 3).blk t).view.set := by
  have hi0 : (i 0).val < 16384 := (i 0).isLt
  have hi1 : (i 1).val < 2048 := (i 1).isLt
  have ht : (i 0).val / 512 < cfg1.N := by show (i 0).val / 512 < 32; omega
  obtain ⟨e0, e1, e2, e3, e4, e5, e6, e7⟩ := idx_facts ⟨(i 0).val / 512, ht⟩
  refine ⟨⟨(i 0).val / 512, ht⟩, flush1_3 _, ?_⟩
  rw [mem_blk]
  intro a
  match a with
  | ⟨0, _⟩ =>
    show win1_3.index ⟨(i 0).val / 512, ht⟩ (0 : Fin 2) * 512 ≤ (i 0).val
      ∧ (i 0).val < win1_3.index ⟨(i 0).val / 512, ht⟩ (0 : Fin 2) * 512 + 512
    rw [e6]; show (i 0).val / 512 * 512 ≤ (i 0).val ∧ (i 0).val < (i 0).val / 512 * 512 + 512; omega
  | ⟨1, _⟩ =>
    show win1_3.index ⟨(i 0).val / 512, ht⟩ (1 : Fin 2) * 2048 ≤ (i 1).val
      ∧ (i 1).val < win1_3.index ⟨(i 0).val / 512, ht⟩ (1 : Fin 2) * 2048 + 2048
    rw [e7]; omega

/-- When the region ends its output array holds the flattened result of the arrays the region found. -/
theorem final (c : Dev nD) : (dat1 V c).arrAt 3 cfg1.N = out2d (V c main_v1) (V c main_v0) (V c main_v2) :=
  (dat1 V c).arrAt_eq_of_cover 3 (out2d (V c main_v1) (V c main_v0) (V c main_v2)) (fun t _ => flushed_eq V c t) cover

end Cert.KernelIdeal.Region1

end
-- ==== Proof.Glue.lean ====
/-
  The second region's flattened output, with its leading axis split again, is the specification.

  The kernel program merges the activation's two leading axes (row `(b, s)` becomes row `4096 b + s`), views the bias
  as one row, computes the output over `[16384, 2048]`, and splits the leading axis back.  A reshape keeps the row-major
  order of the entries, so each of these reads is an equation between row-major positions.
-/
import proofs.«142055_j16587163697535_2_alg».proof.Proof.Gen.KernelIdeal
import proofs.«142055_j16587163697535_2_alg».proof.Proof.Arrays
import Idealize.ShloMosaic.Lib.Pipeline.Value
import Idealize.ShloMosaic.Lib.ValueIdx
import Idealize.ShloMosaic.Lib.ValueLayout

noncomputable section

namespace Cert.KernelIdeal.Glue

open Cert.KernelIdeal Idealize.ShloMosaic Idealize.ShloMosaic.ValueIdx Cert.Quant

/-- Row `(b, s)` of the activation is row `4096 b + s` of the activation with its two leading axes merged. -/
abbrev flatRow (b : Fin 4) (s : Fin 4096) : Fin 16384 :=
  ⟨4096 * b.val + s.val, by have := b.isLt; have := s.isLt; omega⟩

/-- Merging the two leading axes: entry `(4096 b + s, d)` of the merged array is entry `(b, s, d)`. -/
theorem merge_apply (X3 : S4x4096x2048.Idx → EReal) (h : S4x4096x2048.ShapeCasts S16384x2048)
    (b : Fin 4) (s : Fin 4096) (d : Fin 2048) :
    shapeCast S16384x2048 X3 h (ix2 (flatRow b s) d) = X3 (ix3 b s d) :=
  shapeCast_apply X3 h _ _ (by
    rw [Shape.rowMajor_val_three, Shape.rowMajor_val_two]
    show (b.val * 4096 + s.val) * 2048 + d.val = (4096 * b.val + s.val) * 2048 + d.val
    omega)

/-- Splitting the leading axis: entry `(b, s, e)` of the split array is entry `(4096 b + s, e)`. -/
theorem split_apply (Y : S16384x2048.Idx → EReal) (h : S16384x2048.ShapeCasts S4x4096x2048)
    (b : Fin 4) (s : Fin 4096) (e : Fin 2048) :
    shapeCast S4x4096x2048 Y h (ix3 b s e) = Y (ix2 (flatRow b s) e) :=
  shapeCast_apply Y h _ _ (by
    rw [Shape.rowMajor_val_two, Shape.rowMajor_val_three]
    show (4096 * b.val + s.val) * 2048 + e.val = (b.val * 4096 + s.val) * 2048 + e.val
    omega)

/-- The flattened result over the merged activation, the quantised weight and the bias as one row, with its leading
    axis split again, is the specification: row `4096 b + s` of the merged activation is row `(b, s)`, entry `(e, k)`
    of the quantised weight is the weight quantised at `(e, k)`, and entry `(0, e)` of the bias row is the bias at `e`. -/
theorem glue (X3 : FVec Ideal S4x4096x2048 .f32) (W : FVec Ideal S2048x2048 .f32) (Bv : FVec Ideal S2048 .f32) :
    shapeCast S4x4096x2048
        (Cert.Quant.out2d (shapeCast S16384x2048 X3 Facts₀.shapeCasts_S4x4096x2048_S16384x2048) (Cert.Quant.qArr W)
          (shapeCast S1x2048 Bv Facts₀.shapeCasts_S2048_S1x2048))
        Facts₀.shapeCasts_S16384x2048_S4x4096x2048
      = Cert.Quant.result X3 W Bv := by
  funext i
  obtain ⟨b, s, e, rfl⟩ : ∃ (b : Fin 4) (s : Fin 4096) (e : Fin 2048), i = ix3 b s e := ⟨i 0, i 1, i 2, eq_ix3 i⟩
  rw [split_apply]
  show (∑ k : Fin 2048, qRow (fun d => shapeCast S16384x2048 X3 Facts₀.shapeCasts_S4x4096x2048_S16384x2048
        (ix2 (flatRow b s) d)) k * qMat W e k)
      + shapeCast S1x2048 Bv Facts₀.shapeCasts_S2048_S1x2048 (ix2 (0 : Fin 1) e)
    = (∑ d : Fin 2048, qRow (fun d' => X3 (ix3 b s d')) d * qMat W e d) + Bv (ix1 e)
  have hrow : (fun d => shapeCast S16384x2048 X3 Facts₀.shapeCasts_S4x4096x2048_S16384x2048 (ix2 (flatRow b s) d))
      = fun d' => X3 (ix3 b s d') := funext fun d => merge_apply X3 _ b s d
  rw [hrow, shapeCast_a_1a_apply]

end Cert.KernelIdeal.Glue

end
-- ==== Proof.KernelValue.lean ====
/-
  The kernel's result as one function of its arguments.

  The first region leaves the quantised weight in its output buffer; two reshapes flatten the activation to
  16384 × 2048 and view the bias as one row; the second region leaves the flattened result of those three arrays;
  a last reshape views it as 4 × 4096 × 2048.  Read back through these steps, the result buffer holds
  `Cert.Quant.result` of the three arguments.
-/
import proofs.«142055_j16587163697535_2_alg».proof.Proof.KernelRun
import proofs.«142055_j16587163697535_2_alg».proof.Proof.Region0
import proofs.«142055_j16587163697535_2_alg».proof.Proof.Region1
import proofs.«142055_j16587163697535_2_alg».proof.Proof.Glue

set_option maxRecDepth 16384

noncomputable section

namespace Cert.KernelIdeal.KernelValue

open Cert.KernelIdeal Cert.KernelIdeal.Gen Idealize.ShloMosaic Idealize.ShloMosaic.TcCoe Idealize.SL.Sem Cert.Quant

variable (m : (ℓ : Loc nD τ sig) → Buf (Elt Ideal) ℓ) (ρ : Dev nD → PrngReg)

/-- The quantised weight is what the second region finds in its weight operand. -/
theorem weight_eq (c : Dev nD) : V2 m ρ c main_v0 = qArr (m ((c.tc : Thread nD τ).loc main_arg1)) :=
  (Run.V2_weight m ρ c).trans ((Region0.final (V0 m ρ) c).trans (congrArg qArr (Run.V0_weight m ρ c)))

/-- The result buffer after the run, as a function of the arguments. -/
theorem result_eq (c : Dev nD) :
    W4 m ρ c (Proc.devRef .tc main_v4)
      = result (m ((c.tc : Thread nD τ).loc main_arg0)) (m ((c.tc : Thread nD τ).loc main_arg1))
          (m ((c.tc : Thread nD τ).loc main_arg2)) := by
  rw [Run.W4_result, Region1.final (V2 m ρ) c, Run.V2_act, weight_eq, Run.V2_bias]
  exact Glue.glue _ _ _

/-- Every weakly fair execution of the kernel's program terminates with the result buffer at `result` of the
    arguments and the arguments unchanged. -/
theorem run : θ_run defs (onTc (τ := τ) (main (F := Ideal))) ⟨m, fun _ => 0, ρ⟩ (fun r => ∀ c : Dev nD,
      r.2.mem ((c.tc : Thread nD τ).loc main_v4)
        = result (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (Run.run_result (F := Ideal) m ρ)

end Cert.KernelIdeal.KernelValue

end
-- ==== Proof.RefValue.lean ====
/-
  The reference computes the specification `Cert.Quant.result`.

  The reference views each row of 2048 activations as 64 groups of 32 (the shape `[4, 4096, 1, 64, 32]`), takes every
  group's largest absolute value by a maximum over the axes of sizes 1 and 32, turns it into a scale, and quantises each
  entry at its group's scale.  It does the same to the transposed weight, viewed as 64 × 64 tiles of 32 × 32 (the shape
  `[64, 32, 64, 32]`), with the maximum over the two axes of size 32.  It then contracts the two quantised arrays over
  the shared axis of 2048 and adds the bias.

  Each step below reads one of these arrays at explicit coordinates.  A maximum over a set of indices depends only on the
  set of values it ranges over, so the two reductions are the specification's `max1` and `max2`: the indices that the
  reduction keeps for group `(b, s, g)` are exactly `(b, s, 0, g, l)` for `l < 32`, and for tile `(a, c)` exactly
  `(a, l, c, j)` for `l, j < 32`.  Because the weight is transposed first, entry `(a, l, c, j)` of the tiled view is the
  weight at row `32 c + j` and column `32 a + l`.
-/
import proofs.«142055_j16587163697535_2_alg».proof.Proof.Gen.ReferenceIdeal.Read
import proofs.«142055_j16587163697535_2_alg».proof.Proof.Spec
import Idealize.ShloMosaic.PureOps.Reduce
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Quant

/-! ## The activation side -/

/-- Entry `l` of group `g` of a row of 2048 entries. -/
abbrev inGroup (g : Fin 64) (l : Fin 32) : Fin 2048 := ⟨32 * g.val + l.val, by have := g.isLt; have := l.isLt; omega⟩

/-- The group of 32 that entry `d` lies in. -/
abbrev grp (d : Fin 2048) : Fin 64 := ⟨d.val / 32, by have := d.isLt; omega⟩

/-- The place of entry `d` inside its group. -/
abbrev pos (d : Fin 2048) : Fin 32 := ⟨d.val % 32, by omega⟩

theorem inGroup_grp_pos (d : Fin 2048) : inGroup (grp d) (pos d) = d :=
  Fin.ext (by show 32 * (d.val / 32) + d.val % 32 = d.val; omega)

/-- The grouped view `[4, 4096, 1, 64, 32]` of the activation reads entry `32 g + l` of row `(b, s)` at `(b, s, 0, g, l)`. -/
theorem idx_v0_ix5 (b : Fin 4) (s : Fin 4096) (z : Fin 1) (g : Fin 64) (l : Fin 32) :
    idx_main_v0 (ix5 b s z g l) = ix3 b s (inGroup g l) := by
  have hb := b.isLt; have hs := s.isLt; have hz := z.isLt; have hg := g.isLt; have hl := l.isLt
  funext a
  match a with
  | ⟨0, _⟩ =>
    refine Fin.ext ?_
    show ((((b.val * 4096 + s.val) * 1 + z.val) * 64 + g.val) * 32 + l.val) / 8388608 = b.val
    omega
  | ⟨1, _⟩ =>
    refine Fin.ext ?_
    show ((((b.val * 4096 + s.val) * 1 + z.val) * 64 + g.val) * 32 + l.val) / 2048 % 4096 = s.val
    omega
  | ⟨2, _⟩ =>
    refine Fin.ext ?_
    show ((((b.val * 4096 + s.val) * 1 + z.val) * 64 + g.val) * 32 + l.val) % 2048 = 32 * g.val + l.val
    omega

/-- Entry `d` of row `(b, s)` sits at `(b, s, 0, d / 32, d % 32)` of the grouped view. -/
theorem idx_v16_ix3 (b : Fin 4) (s : Fin 4096) (d : Fin 2048) :
    idx_main_v16 (ix3 b s d) = ix5 b s (0 : Fin 1) (grp d) (pos d) := by
  have hb := b.isLt; have hs := s.isLt; have hd := d.isLt
  funext a
  match a with
  | ⟨0, _⟩ =>
    refine Fin.ext ?_
    show ((b.val * 4096 + s.val) * 2048 + d.val) / 8388608 = b.val
    omega
  | ⟨1, _⟩ =>
    refine Fin.ext ?_
    show ((b.val * 4096 + s.val) * 2048 + d.val) / 2048 % 4096 = s.val
    omega
  | ⟨2, _⟩ => rfl
  | ⟨3, _⟩ =>
    refine Fin.ext ?_
    show ((b.val * 4096 + s.val) * 2048 + d.val) / 32 % 64 = d.val / 32
    omega
  | ⟨4, _⟩ =>
    refine Fin.ext ?_
    show ((b.val * 4096 + s.val) * 2048 + d.val) % 32 = d.val % 32
    omega

/-- The maximum over group `g` of row `(b, s)`: the reduction over the axes of sizes 1 and 32 ranges over exactly
    the indices `(b, s, 0, g, l)`, whose values are the 32 absolute values of the group. -/
theorem groupMax (x0 : (⟨S4x4096x2048, .f32⟩ : BufTy).Contents (Elt Ideal)) (b : Fin 4) (s : Fin 4096) (g : Fin 64) :
    val_main_v2 (F := Ideal) x0 (ix3 b s g) = max1 fun l : Fin 32 => absE (x0 (ix3 b s (inGroup g l))) := by
  unfold val_main_v2
  rw [Host.reduce_eq_fold]
  refine fold_eq_max1 _ _ _ ?_ ?_
  · intro i hi
    obtain ⟨a0, a1, a2, a3, a4, rfl⟩ : ∃ (a0 : Fin 4) (a1 : Fin 4096) (a2 : Fin 1) (a3 : Fin 64) (a4 : Fin 32),
        i = ix5 a0 a1 a2 a3 a4 := ⟨i 0, i 1, i 2, i 3, i 4, eq_ix5 i⟩
    have hd := (Finset.mem_filter.1 hi).2
    have h0 : a0 = b := Fin.ext ((reducesTo_S4x4096x1x64x32_S4x4096x64_d2_4.drop_apply_val_of_eq
      (ix5 a0 a1 a2 a3 a4) 0 0).symm.trans (congrArg (fun j => (j 0 : Nat)) hd))
    have h1 : a1 = s := Fin.ext ((reducesTo_S4x4096x1x64x32_S4x4096x64_d2_4.drop_apply_val_of_eq
      (ix5 a0 a1 a2 a3 a4) 1 1).symm.trans (congrArg (fun j => (j 1 : Nat)) hd))
    have h3 : a3 = g := Fin.ext ((reducesTo_S4x4096x1x64x32_S4x4096x64_d2_4.drop_apply_val_of_eq
      (ix5 a0 a1 a2 a3 a4) 2 3).symm.trans (congrArg (fun j => (j 2 : Nat)) hd))
    subst h0 h1 h3
    refine ⟨a4, ?_⟩
    rw [val_main_v1_apply, val_main_v0_apply, idx_v0_ix5]
    rfl
  · intro l
    refine ⟨ix5 b s (0 : Fin 1) g l, Finset.mem_filter.2 ⟨Finset.mem_univ _, ?_⟩, ?_⟩
    · funext a
      match a with
      | ⟨0, _⟩ => exact Fin.ext (reducesTo_S4x4096x1x64x32_S4x4096x64_d2_4.drop_apply_val_of_eq _ 0 0)
      | ⟨1, _⟩ => exact Fin.ext (reducesTo_S4x4096x1x64x32_S4x4096x64_d2_4.drop_apply_val_of_eq _ 1 1)
      | ⟨2, _⟩ => exact Fin.ext (reducesTo_S4x4096x1x64x32_S4x4096x64_d2_4.drop_apply_val_of_eq _ 2 3)
    · rw [val_main_v1_apply, val_main_v0_apply, idx_v0_ix5]
      rfl

/-- The scale of group `g` of row `(b, s)`. -/
theorem scale_act (x0 : (⟨S4x4096x2048, .f32⟩ : BufTy).Contents (Elt Ideal)) (b : Fin 4) (s : Fin 4096) (g : Fin 64)
    (z z' : Fin 1) :
    val_main_v9 (F := Ideal) x0 (ix5 b s z g z') = scaleOf (max1 fun l : Fin 32 => absE (x0 (ix3 b s (inGroup g l)))) := by
  have e : idx_main_v3 (ix5 b s z g z') = ix3 b s g := by
    funext a
    match a with
    | ⟨0, _⟩ => rfl
    | ⟨1, _⟩ => rfl
    | ⟨2, _⟩ => rfl
  rw [val_main_v9_apply, val_main_v5_apply, val_main_v7_apply, val_main_v3_apply, val_main_v4_apply,
    val_main_v6_apply, val_main_v8_apply, e, groupMax]
  rfl

/-- The quantised activation at `(b, s, d)`. -/
theorem act_eq (x0 : (⟨S4x4096x2048, .f32⟩ : BufTy).Contents (Elt Ideal)) (b : Fin 4) (s : Fin 4096) (d : Fin 2048) :
    val_main_v16 (F := Ideal) x0 (ix3 b s d) = qRow (fun d' => x0 (ix3 b s d')) d := by
  have e10 : idx_main_v10 (ix5 b s (0 : Fin 1) (grp d) (pos d)) = ix5 b s (0 : Fin 1) (grp d) (0 : Fin 1) := by
    funext a
    match a with
    | ⟨0, _⟩ => rfl
    | ⟨1, _⟩ => rfl
    | ⟨2, _⟩ => rfl
    | ⟨3, _⟩ => rfl
    | ⟨4, _⟩ => rfl
  have e14 : idx_main_v14 (ix5 b s (0 : Fin 1) (grp d) (pos d)) = ix5 b s (0 : Fin 1) (grp d) (0 : Fin 1) := by
    funext a
    match a with
    | ⟨0, _⟩ => rfl
    | ⟨1, _⟩ => rfl
    | ⟨2, _⟩ => rfl
    | ⟨3, _⟩ => rfl
    | ⟨4, _⟩ => rfl
  rw [val_main_v16_apply, idx_v16_ix3, val_main_v15_apply, val_main_v13_apply, val_main_v14_apply,
    val_main_call2_v4_apply, val_main_call2_v2_apply, val_main_call2_v1_apply, val_main_v12_apply,
    val_main_v11_apply, val_main_v10_apply, val_main_v0_apply, idx_v0_ix5, e10, e14, scale_act, inGroup_grp_pos]
  rfl

/-! ## The weight side -/

/-- The tiled view `[64, 32, 64, 32]` of the transposed weight reads, at `(a, i, c, j)`, the weight at row `32 c + j` and
    column `32 a + i`. -/
theorem idx_v18_ix4 (a : Fin 64) (i : Fin 32) (c : Fin 64) (j : Fin 32) :
    idx_main_v17 (idx_main_v18 (ix4 a i c j)) = ix2 (inGroup c j) (inGroup a i) := by
  have ha := a.isLt; have hi := i.isLt; have hc := c.isLt; have hj := j.isLt
  funext r
  match r with
  | ⟨0, _⟩ =>
    refine Fin.ext ?_
    show (((a.val * 32 + i.val) * 64 + c.val) * 32 + j.val) % 2048 = 32 * c.val + j.val
    omega
  | ⟨1, _⟩ =>
    refine Fin.ext ?_
    show (((a.val * 32 + i.val) * 64 + c.val) * 32 + j.val) / 2048 = 32 * a.val + i.val
    omega

/-- Entry `(d, e)` of the transposed weight sits at `(d / 32, d % 32, e / 32, e % 32)` of the tiled view. -/
theorem idx_v34_ix2 (d e : Fin 2048) : idx_main_v34 (ix2 d e) = ix4 (grp d) (pos d) (grp e) (pos e) := by
  have hd := d.isLt; have he := e.isLt
  funext r
  match r with
  | ⟨0, _⟩ =>
    refine Fin.ext ?_
    show (d.val * 2048 + e.val) / 65536 = d.val / 32
    omega
  | ⟨1, _⟩ =>
    refine Fin.ext ?_
    show (d.val * 2048 + e.val) / 2048 % 32 = d.val % 32
    omega
  | ⟨2, _⟩ =>
    refine Fin.ext ?_
    show (d.val * 2048 + e.val) / 32 % 64 = e.val / 32
    omega
  | ⟨3, _⟩ =>
    refine Fin.ext ?_
    show (d.val * 2048 + e.val) % 32 = e.val % 32
    omega

/-- The maximum over tile `(a, c)` of the transposed weight: the reduction over the two axes of size 32 ranges over
    exactly the indices `(a, l, c, j)`, whose values are the absolute values of the weight's rows `32 c + j` and columns
    `32 a + l`. -/
theorem tileMax (x1 : (⟨S2048x2048, .f32⟩ : BufTy).Contents (Elt Ideal)) (a c : Fin 64) :
    val_main_v20 (F := Ideal) x1 (ix2 a c)
      = max2 fun j l : Fin 32 => absE (x1 (ix2 (inGroup c j) (inGroup a l))) := by
  unfold val_main_v20
  rw [Host.reduce_eq_fold]
  refine fold_eq_max2 _ _ _ ?_ ?_
  · intro i hi
    obtain ⟨a0, a1, a2, a3, rfl⟩ : ∃ (a0 : Fin 64) (a1 : Fin 32) (a2 : Fin 64) (a3 : Fin 32),
        i = ix4 a0 a1 a2 a3 := ⟨i 0, i 1, i 2, i 3, eq_ix4 i⟩
    have hd := (Finset.mem_filter.1 hi).2
    have h0 : a0 = a := Fin.ext ((reducesTo_S64x32x64x32_S64x64_d1_3.drop_apply_val_of_eq
      (ix4 a0 a1 a2 a3) 0 0).symm.trans (congrArg (fun j => (j 0 : Nat)) hd))
    have h2 : a2 = c := Fin.ext ((reducesTo_S64x32x64x32_S64x64_d1_3.drop_apply_val_of_eq
      (ix4 a0 a1 a2 a3) 1 2).symm.trans (congrArg (fun j => (j 1 : Nat)) hd))
    subst h0 h2
    refine ⟨a3, a1, ?_⟩
    rw [val_main_v19_apply, val_main_v18_apply, val_main_v17_apply, idx_v18_ix4]
    rfl
  · intro j l
    refine ⟨ix4 a l c j, Finset.mem_filter.2 ⟨Finset.mem_univ _, ?_⟩, ?_⟩
    · funext r
      match r with
      | ⟨0, _⟩ => exact Fin.ext (reducesTo_S64x32x64x32_S64x64_d1_3.drop_apply_val_of_eq _ 0 0)
      | ⟨1, _⟩ => exact Fin.ext (reducesTo_S64x32x64x32_S64x64_d1_3.drop_apply_val_of_eq _ 1 2)
    · rw [val_main_v19_apply, val_main_v18_apply, val_main_v17_apply, idx_v18_ix4]
      rfl

/-- The scale of tile `(a, c)` of the transposed weight. -/
theorem scale_w (x1 : (⟨S2048x2048, .f32⟩ : BufTy).Contents (Elt Ideal)) (a c : Fin 64) (z z' : Fin 1) :
    val_main_v27 (F := Ideal) x1 (ix4 a z c z')
      = scaleOf (max2 fun j l : Fin 32 => absE (x1 (ix2 (inGroup c j) (inGroup a l)))) := by
  have e : idx_main_v21 (ix4 a z c z') = ix2 a c := by
    funext r
    match r with
    | ⟨0, _⟩ => rfl
    | ⟨1, _⟩ => rfl
  rw [val_main_v27_apply, val_main_v23_apply, val_main_v25_apply, val_main_v21_apply, val_main_v22_apply,
    val_main_v24_apply, val_main_v26_apply, e, tileMax]
  rfl

/-- The quantised transposed weight at `(d, e)` is the quantised weight at `(e, d)`. -/
theorem w_eq (x1 : (⟨S2048x2048, .f32⟩ : BufTy).Contents (Elt Ideal)) (d e : Fin 2048) :
    val_main_v34 (F := Ideal) x1 (ix2 d e) = qMat x1 e d := by
  have e28 : idx_main_v28 (ix4 (grp d) (pos d) (grp e) (pos e)) = ix4 (grp d) (0 : Fin 1) (grp e) (0 : Fin 1) := by
    funext r
    match r with
    | ⟨0, _⟩ => rfl
    | ⟨1, _⟩ => rfl
    | ⟨2, _⟩ => rfl
    | ⟨3, _⟩ => rfl
  have e32 : idx_main_v32 (ix4 (grp d) (pos d) (grp e) (pos e)) = ix4 (grp d) (0 : Fin 1) (grp e) (0 : Fin 1) := by
    funext r
    match r with
    | ⟨0, _⟩ => rfl
    | ⟨1, _⟩ => rfl
    | ⟨2, _⟩ => rfl
    | ⟨3, _⟩ => rfl
  rw [val_main_v34_apply, idx_v34_ix2, val_main_v33_apply, val_main_v31_apply, val_main_v32_apply,
    val_main_call5_v4_apply, val_main_call5_v2_apply, val_main_call5_v1_apply, val_main_v30_apply,
    val_main_v29_apply, val_main_v28_apply, val_main_v18_apply, val_main_v17_apply, idx_v18_ix4, e28, e32, scale_w,
    inGroup_grp_pos, inGroup_grp_pos]
  rfl

/-! ## The bias and the assembly -/

/-- The broadcast bias at `(b, s, e)` is the bias at `e`. -/
theorem bias_eq (x2 : (⟨S2048, .f32⟩ : BufTy).Contents (Elt Ideal)) (b : Fin 4) (s : Fin 4096) (e : Fin 2048) :
    val_main_v37 (F := Ideal) x2 (ix3 b s e) = x2 (ix1 e) := by
  have h : idx_main_v36 (idx_main_v37 (ix3 b s e)) = ix1 e := by
    funext r
    match r with
    | ⟨0, _⟩ => rfl
  rw [val_main_v37_apply, val_main_v36_apply, h]

/-- The reference computes the specification. -/
theorem ref_eq (x0 : (⟨Cert.ReferenceIdeal.S4x4096x2048, .f32⟩ : BufTy).Contents (Elt Ideal))
    (x1 : (⟨Cert.ReferenceIdeal.S2048x2048, .f32⟩ : BufTy).Contents (Elt Ideal))
    (x2 : (⟨Cert.ReferenceIdeal.S2048, .f32⟩ : BufTy).Contents (Elt Ideal)) :
    Cert.ReferenceIdeal.Read.val_main_v38 (F := Ideal) x0 x1 x2 = Cert.Quant.result x0 x1 x2 := by
  funext i
  obtain ⟨b, s, e, rfl⟩ : ∃ (b : Fin 4) (s : Fin 4096) (e : Fin 2048), i = ix3 b s e := ⟨i 0, i 1, i 2, eq_ix3 i⟩
  have el : ∀ k : Fin 2048, lidx_main_v35 (ix3 b s e) k = ix3 b s k := fun k => by
    funext r
    match r with
    | ⟨0, _⟩ => rfl
    | ⟨1, _⟩ => rfl
    | ⟨2, _⟩ => rfl
  have er : ∀ k : Fin 2048, ridx_main_v35 (ix3 b s e) k = ix2 k e := fun k => by
    funext r
    match r with
    | ⟨0, _⟩ => rfl
    | ⟨1, _⟩ => rfl
  have hsum : (∑ k : Fin 2048, val_main_v16 (F := Ideal) x0 (lidx_main_v35 (ix3 b s e) k)
        * val_main_v34 (F := Ideal) x1 (ridx_main_v35 (ix3 b s e) k))
      = ∑ k : Fin 2048, qRow (fun d' => x0 (ix3 b s d')) k * qMat x1 e k :=
    Finset.sum_congr rfl fun k _ => by rw [el k, er k, act_eq, w_eq]
  rw [val_main_v38_apply, val_main_v35_apply, bias_eq, hsum]
  rfl

end Cert.ReferenceIdeal.RefValue

end
-- ==== Proof.lean ====
/-
  A linear layer with block-quantised operands, as a two-region kernel and as a jnp reference, computes one
  function over the extended reals.

  Both programs quantise the activation in groups of 32 along its last axis and the weight in 32 × 32 tiles — divide
  by the group's scale, round to the nearest integer with ties to even, clamp to [-127, 127], multiply back —,
  contract the two over the feature axis and add the bias.  They differ in how they arrange this.  The kernel takes
  a tile's largest absolute value in two steps (over a row of the tile, then over the rows) where the reference
  takes it in one; a maximum does not depend on the grouping.  The kernel quantises the weight as stored and
  contracts the last axes of both operands, where the reference quantises the transposed weight and contracts
  with its first axis; a 32 × 32 tile of the transpose is the transpose of a tile, with the same entries and hence
  the same scale.  The kernel works on row blocks of the flattened activation and of the weight; the groups and
  tiles never straddle a block, so the blocks are restrictions of one array.  No step needs the inputs to be
  finite: only the commutativity and associativity of `max` and of the sum enter.

  `Cert.Quant.result` (Proof/Spec.lean) is that function.  The kernel's run ends with its result buffer at
  `result` of the arguments (Proof/KernelValue.lean, over the two regions' arrays: Proof/Region0.lean,
  Proof/Region1.lean, and the bodies' stored values: Proof/Body0.lean, Proof/Quant1.lean, Proof/Matmul1.lean,
  Proof/Pay1.lean); the reference's run ends with its result at the same function (Proof/RefValue.lean).  The three
  frame claims are the generated frames; the idealization rewrote nothing, so the fourth claim is trivial.
-/
import proofs.«142055_j16587163697535_2_alg».proof.Defs
import proofs.«142055_j16587163697535_2_alg».proof.Proof.Gen.Kernel
import proofs.«142055_j16587163697535_2_alg».proof.Proof.Gen.Kernel.Skeleton
import proofs.«142055_j16587163697535_2_alg».proof.Proof.Gen.Kernel.Launch
import proofs.«142055_j16587163697535_2_alg».proof.Proof.Gen.Kernel.Points
import proofs.«142055_j16587163697535_2_alg».proof.Proof.Gen.Kernel.Frame
import proofs.«142055_j16587163697535_2_alg».proof.Proof.Gen.KernelIdeal
import proofs.«142055_j16587163697535_2_alg».proof.Proof.Gen.KernelIdeal.Skeleton
import proofs.«142055_j16587163697535_2_alg».proof.Proof.Gen.KernelIdeal.Launch
import proofs.«142055_j16587163697535_2_alg».proof.Proof.Gen.KernelIdeal.Points
import proofs.«142055_j16587163697535_2_alg».proof.Proof.Gen.KernelIdeal.Frame
import proofs.«142055_j16587163697535_2_alg».proof.Proof.Gen.ReferenceIdeal
import proofs.«142055_j16587163697535_2_alg».proof.Proof.Gen.Pre_finite_inputs
import proofs.«142055_j16587163697535_2_alg».proof.Proof.Gen.ReferenceIdeal.Run
import proofs.«142055_j16587163697535_2_alg».proof.Proof.Gen.ReferenceIdeal.Read
import proofs.«142055_j16587163697535_2_alg».proof.Proof.KernelValue
import proofs.«142055_j16587163697535_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both runs end with the result at `Cert.Quant.result` of the
    arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
